-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S1000000x128 .f32) (main_arg1 : IVec S1024000 32) (main_arg2 : IVec S1024000 32) (main_arg3 : IVec S102400 32) (main_arg4 : IVec S102400 32) (main_arg5 : IVec S10240 32) (main_arg6 : IVec S10240 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S1000000x128 : Shape := ⟨2, ![1000000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S1024000x1 : Shape := ⟨2, ![1024000, 1]⟩
abbrev S1024000x128 : Shape := ⟨2, ![1024000, 128]⟩
abbrev S102400x128 : Shape := ⟨2, ![102400, 128]⟩
abbrev S102400x1 : Shape := ⟨2, ![102400, 1]⟩
abbrev S102400x256 : Shape := ⟨2, ![102400, 256]⟩
abbrev S2048x128 : Shape := ⟨2, ![2048, 128]⟩
abbrev S2048x1 : Shape := ⟨2, ![2048, 1]⟩
abbrev S2048x256 : Shape := ⟨2, ![2048, 256]⟩
abbrev S1x256 : Shape := ⟨2, ![1, 256]⟩
abbrev S2048 : Shape := ⟨1, ![2048]⟩
abbrev S10240x256 : Shape := ⟨2, ![10240, 256]⟩
abbrev S10240x1 : Shape := ⟨2, ![10240, 1]⟩
abbrev S1024x256 : Shape := ⟨2, ![1024, 256]⟩
abbrev S1024 : Shape := ⟨1, ![1024]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 88
  | .vmem => 29
  | .smem => 0
  | _ => 0

abbrev bufTy : (tb : Table) → Fin (tcTables nBuf tb) → BufTy
  | .hbm, ⟨0, _⟩ => ⟨S1000000x128, .f32⟩
  | .hbm, ⟨1, _⟩ => ⟨S1024000, .i32⟩
  | .hbm, ⟨2, _⟩ => ⟨S1024000, .i32⟩
  | .hbm, ⟨3, _⟩ => ⟨S102400, .i32⟩
  | .hbm, ⟨4, _⟩ => ⟨S102400, .i32⟩
  | .hbm, ⟨5, _⟩ => ⟨S10240, .i32⟩
  | .hbm, ⟨6, _⟩ => ⟨S10240, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S1024000, .i32⟩
  | .hbm, ⟨18, _⟩ => ⟨S1024000, .i1⟩
  | .hbm, ⟨19, _⟩ => ⟨S_, .i32⟩
  | .hbm, ⟨20, _⟩ => ⟨S1024000, .i32⟩
  | .hbm, ⟨21, _⟩ => ⟨S1024000, .i32⟩
  | .hbm, ⟨22, _⟩ => ⟨S1024000, .i32⟩
  | .hbm, ⟨23, _⟩ => ⟨S1024000x1, .i32⟩
  | .hbm, ⟨24, _⟩ => ⟨S1024000x128, .f32⟩
  | .hbm, ⟨25, _⟩ => ⟨S_, .f32⟩
  | .hbm, ⟨26, _⟩ => ⟨S102400x128, .f32⟩
  | .hbm, ⟨27, _⟩ => ⟨S1024000x1, .i32⟩
  | .hbm, ⟨28, _⟩ => ⟨S102400x128, .f32⟩
  | .hbm, ⟨29, _⟩ => ⟨S_, .f32⟩
  | .hbm, ⟨30, _⟩ => ⟨S1024000, .f32⟩
  | .hbm, ⟨31, _⟩ => ⟨S_, .f32⟩
  | .hbm, ⟨32, _⟩ => ⟨S102400, .f32⟩
  | .hbm, ⟨33, _⟩ => ⟨S1024000x1, .i32⟩
  | .hbm, ⟨34, _⟩ => ⟨S102400, .f32⟩
  | .hbm, ⟨35, _⟩ => ⟨S102400x128, .f32⟩
  | .hbm, ⟨36, _⟩ => ⟨S128x256, .bf16⟩
  | .hbm, ⟨37, _⟩ => ⟨S128x256, .bf16⟩
  | .hbm, ⟨38, _⟩ => ⟨S102400x1, .f32⟩
  | .hbm, ⟨39, _⟩ => ⟨S102400x256, .f32⟩
  | .hbm, ⟨40, _⟩ => ⟨S_, .i32⟩
  | .hbm, ⟨41, _⟩ => ⟨S102400, .i32⟩
  | .hbm, ⟨42, _⟩ => ⟨S102400, .i1⟩
  | .hbm, ⟨43, _⟩ => ⟨S_, .i32⟩
  | .hbm, ⟨44, _⟩ => ⟨S102400, .i32⟩
  | .hbm, ⟨45, _⟩ => ⟨S102400, .i32⟩
  | .hbm, ⟨46, _⟩ => ⟨S102400, .i32⟩
  | .hbm, ⟨47, _⟩ => ⟨S102400x1, .i32⟩
  | .hbm, ⟨48, _⟩ => ⟨S102400x256, .f32⟩
  | .hbm, ⟨49, _⟩ => ⟨S_, .f32⟩
  | .hbm, ⟨50, _⟩ => ⟨S10240x256, .f32⟩
  | .hbm, ⟨51, _⟩ => ⟨S102400x1, .i32⟩
  | .hbm, ⟨52, _⟩ => ⟨S10240x256, .f32⟩
  | .hbm, ⟨53, _⟩ => ⟨S_, .f32⟩
  | .hbm, ⟨54, _⟩ => ⟨S102400, .f32⟩
  | .hbm, ⟨55, _⟩ => ⟨S_, .f32⟩
  | .hbm, ⟨56, _⟩ => ⟨S10240, .f32⟩
  | .hbm, ⟨57, _⟩ => ⟨S102400x1, .i32⟩
  | .hbm, ⟨58, _⟩ => ⟨S10240, .f32⟩
  | .hbm, ⟨59, _⟩ => ⟨S10240x256, .f32⟩
  | .hbm, ⟨60, _⟩ => ⟨S256x256, .bf16⟩
  | .hbm, ⟨61, _⟩ => ⟨S256x256, .bf16⟩
  | .hbm, ⟨62, _⟩ => ⟨S10240x1, .f32⟩
  | .hbm, ⟨63, _⟩ => ⟨S10240x256, .f32⟩
  | .hbm, ⟨64, _⟩ => ⟨S_, .i32⟩
  | .hbm, ⟨65, _⟩ => ⟨S10240, .i32⟩
  | .hbm, ⟨66, _⟩ => ⟨S10240, .i1⟩
  | .hbm, ⟨67, _⟩ => ⟨S_, .i32⟩
  | .hbm, ⟨68, _⟩ => ⟨S10240, .i32⟩
  | .hbm, ⟨69, _⟩ => ⟨S10240, .i32⟩
  | .hbm, ⟨70, _⟩ => ⟨S10240, .i32⟩
  | .hbm, ⟨71, _⟩ => ⟨S10240x1, .i32⟩
  | .hbm, ⟨72, _⟩ => ⟨S10240x256, .f32⟩
  | .hbm, ⟨73, _⟩ => ⟨S_, .f32⟩
  | .hbm, ⟨74, _⟩ => ⟨S1024x256, .f32⟩
  | .hbm, ⟨75, _⟩ => ⟨S10240x1, .i32⟩
  | .hbm, ⟨76, _⟩ => ⟨S1024x256, .f32⟩
  | .hbm, ⟨77, _⟩ => ⟨S_, .f32⟩
  | .hbm, ⟨78, _⟩ => ⟨S10240, .f32⟩
  | .hbm, ⟨79, _⟩ => ⟨S_, .f32⟩
  | .hbm, ⟨80, _⟩ => ⟨S1024, .f32⟩
  | .hbm, ⟨81, _⟩ => ⟨S10240x1, .i32⟩
  | .hbm, ⟨82, _⟩ => ⟨S1024, .f32⟩
  | .hbm, ⟨83, _⟩ => ⟨S1024x256, .f32⟩
  | .hbm, ⟨84, _⟩ => ⟨S256x47, .bf16⟩
  | .hbm, ⟨85, _⟩ => ⟨S256x47, .bf16⟩
  | .hbm, ⟨86, _⟩ => ⟨S1024x1, .f32⟩
  | .hbm, ⟨87, _⟩ => ⟨S1024x47, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S128x256, .bf16⟩
  | .local _ .vmem, ⟨7, _⟩ => ⟨S128x256, .bf16⟩
  | .local _ .vmem, ⟨8, _⟩ => ⟨S256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x1, .f32⟩
  | .local _ .vmem, ⟨16, _⟩ => ⟨S2048x1, .f32⟩
  | .local _ .vmem, ⟨17, _⟩ => ⟨S256x256, .bf16⟩
  | .local _ .vmem, ⟨18, _⟩ => ⟨S256x256, .bf16⟩
  | .local _ .vmem, ⟨19, _⟩ => ⟨S256, .f32⟩
  | .local _ .vmem, ⟨20, _⟩ => ⟨S2048x256, .f32⟩
  | .local _ .vmem, ⟨21, _⟩ => ⟨S2048x256, .f32⟩
  | .local _ .vmem, ⟨22, _⟩ => ⟨S1024x256, .f32⟩
  | .local _ .vmem, ⟨23, _⟩ => ⟨S1024x256, .f32⟩
  | .local _ .vmem, ⟨24, _⟩ => ⟨S1024x1, .f32⟩
  | .local _ .vmem, ⟨25, _⟩ => ⟨S256x47, .bf16⟩
  | .local _ .vmem, ⟨26, _⟩ => ⟨S256x47, .bf16⟩
  | .local _ .vmem, ⟨27, _⟩ => ⟨S47, .f32⟩
  | .local _ .vmem, ⟨28, _⟩ => ⟨S1024x47, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S256x47 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x47 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  slices_S1000000x128_S102400x128_0_0 : S1000000x128.Slices ![0, 0] S102400x128
  bitsLt_bf16_f32 : FTy.bits .bf16 < FTy.bits .f32
  bcast_S102400_S102400x1_0 : S102400.BroadcastsInDim S102400x1 (![0] : Fin 1 → Fin S102400x1.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  bcast_S_S10240x256 : S_.BroadcastsInDim S10240x256 (![] : Fin 0 → Fin S10240x256.rank)
  bcast_S_S10240 : S_.BroadcastsInDim S10240 (![] : Fin 0 → Fin S10240.rank)
  slices_S102400x256_S10240x256_0_0 : S102400x256.Slices ![0, 0] S10240x256
  bcast_S10240_S10240x1_0 : S10240.BroadcastsInDim S10240x1 (![0] : Fin 1 → Fin S10240x1.rank)
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S1024x256 : S_.BroadcastsInDim S1024x256 (![] : Fin 0 → Fin S1024x256.rank)
  bcast_S_S1024 : S_.BroadcastsInDim S1024 (![] : Fin 0 → Fin S1024.rank)
  slices_S10240x256_S1024x256_0_0 : S10240x256.Slices ![0, 0] S1024x256
  bcast_S1024_S1024x1_0 : S1024.BroadcastsInDim S1024x1 (![0] : Fin 1 → Fin S1024x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x256 : S1024x1.Broadcasts S1024x256
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S47_S47_0 : ∀ a, (![0] : Fin 1 → Nat) a + S47.size a ≤ S47.size a
  h_S47 : 0 < S47.numel
  shapeCasts_S47_S1x47 : S47.ShapeCasts S1x47
  broadcasts_S1x47_S1024x47 : S1x47.Broadcasts S1024x47
  reduces_S1024x47_S1024 : S1024x47.Reduces [1] S1024
  shapeCasts_S1024_S1024x1 : S1024.ShapeCasts S1024x1
  broadcasts_S1024x1_S1024x47 : S1024x1.Broadcasts S1024x47
  inb_S1024x47_S1024x47_0_0 : ∀ a, (![0, 0] : Fin 2 → Nat) a + S1024x47.size a ≤ S1024x47.size a
  h_S1024x47 : 0 < S1024x47.numel
  gather_S1000000x128_S1024000x1_S1024000x128_1_0_n_n_0_1_1128_wf : GatherDims.WF S1000000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S2048x128_S128x256_S2048x256_1_0_0_1_n_n_wf : DotDims.WF S2048x128 S128x256 S2048x256 [1] [0] [0] [1] [] []
  gather_S102400x256_S102400x1_S102400x256_1_0_n_n_0_1_1256_wf : GatherDims.WF S102400x256 S102400x1 S102400x256 [1] [0] [] [0] [] 1 ![1, 256]
  scatter_S10240x256_S102400x1_S102400x256_1_0_0_1_wf : ScatterDims.WF S10240x256 S102400x1 S102400x256 [1] [0] [0] 1
  scatter_S10240_S102400x1_S102400_n_0_0_1_wf : ScatterDims.WF S10240 S102400x1 S102400 [] [0] [0] 1
  dot_S2048x256_S256x256_S2048x256_1_0_0_1_n_n_wf : DotDims.WF S2048x256 S256x256 S2048x256 [1] [0] [0] [1] [] []
  gather_S10240x256_S10240x1_S10240x256_1_0_n_n_0_1_1256_wf : GatherDims.WF S10240x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S102400x128.size a
  hwx0_0 : ∀ i : grid0.Coords, EltTy.bits .f32 = 32 ∨ (Rect.block (s := S102400x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S102400x128.size a
  hwx0_1 : ∀ i : grid0.Coords, EltTy.bits .f32 = 32 ∨ (Rect.block (s := S102400x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S102400x1.size a
  hwx0_2 : ∀ i : grid0.Coords, EltTy.bits .f32 = 32 ∨ (Rect.block (s := S102400x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S102400x256.size a
  hwx0_6 : ∀ i : grid0.Coords, EltTy.bits .f32 = 32 ∨ (Rect.block (s := S102400x256) S2048x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S10240x256.size a
  hwx1_0 : ∀ i : grid1.Coords, EltTy.bits .f32 = 32 ∨ (Rect.block (s := S10240x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .f32 = 32 ∨ (Rect.block (s := S10240x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S10240x1.size a
  hwx1_2 : ∀ i : grid1.Coords, EltTy.bits .f32 = 32 ∨ (Rect.block (s := S10240x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S10240x256.size a
  hwx1_6 : ∀ i : grid1.Coords, EltTy.bits .f32 = 32 ∨ (Rect.block (s := S10240x256) S2048x256.size (cc1_transform_6 i) (hinb1_6 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x256.size a
  hwx2_0 : ∀ i : grid2.Coords, EltTy.bits .f32 = 32 ∨ (Rect.block (s := S1024x256) S1024x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .f32 = 32 ∨ (Rect.block (s := S1024x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .bf16 = 32 ∨ (Rect.block (s := S256x47) S256x47.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .bf16 = 32 ∨ (Rect.block (s := S256x47) S256x47.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S47.size a ≤ S47.size a
  hwx2_5 : ∀ i : grid2.Coords, EltTy.bits .f32 = 32 ∨ (Rect.block (s := S47) S47.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1024x47.size a ≤ S1024x47.size a
  hwx2_6 : ∀ i : grid2.Coords, EltTy.bits .f32 = 32 ∨ (Rect.block (s := S1024x47) S1024x47.size (cc2_transform_6 i) (hinb2_6 i)).WholeWords (EltTy.packing .f32)

variable [Facts₀]

def gather_S1000000x128_S1024000x1_S1024000x128_1_0_n_n_0_1_1128 : GatherDims S1000000x128 S1024000x1 S1024000x128 where
  offsetDims := [1]
  collapsedSliceDims := [0]
  operandBatchingDims := []
  startIndicesBatchingDims := []
  startIndexMap := [0]
  indexVectorDim := 1
  sliceSizes := ![1, 128]
  wf := gather_S1000000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S102400x256_S102400x1_S102400x256_1_0_n_n_0_1_1256 : GatherDims S102400x256 S102400x1 S102400x256 where
  offsetDims := [1]
  collapsedSliceDims := [0]
  operandBatchingDims := []
  startIndicesBatchingDims := []
  startIndexMap := [0]
  indexVectorDim := 1
  sliceSizes := ![1, 256]
  wf := gather_S102400x256_S102400x1_S102400x256_1_0_n_n_0_1_1256_wf
def scatter_S10240x256_S102400x1_S102400x256_1_0_0_1 : ScatterDims S10240x256 S102400x1 S102400x256 where
  updateWindowDims := [1]
  insertedWindowDims := [0]
  scatterDimsToOperandDims := [0]
  indexVectorDim := 1
  wf := scatter_S10240x256_S102400x1_S102400x256_1_0_0_1_wf
def scatter_S10240_S102400x1_S102400_n_0_0_1 : ScatterDims S10240 S102400x1 S102400 where
  updateWindowDims := []
  insertedWindowDims := [0]
  scatterDimsToOperandDims := [0]
  indexVectorDim := 1
  wf := scatter_S10240_S102400x1_S102400_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S10240x256_S10240x1_S10240x256_1_0_n_n_0_1_1256 : GatherDims S10240x256 S10240x1 S10240x256 where
  offsetDims := [1]
  collapsedSliceDims := [0]
  operandBatchingDims := []
  startIndicesBatchingDims := []
  startIndexMap := [0]
  indexVectorDim := 1
  sliceSizes := ![1, 256]
  wf := gather_S10240x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v14) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S1024x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1024x1.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1024x47.size cc2_transform_6 reads2_6 true false 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S1024000x1 : Shape := ⟨2, ![1024000, 1]⟩
abbrev S1024000x128 : Shape := ⟨2, ![1024000, 128]⟩
abbrev S102400x128 : Shape := ⟨2, ![102400, 128]⟩
abbrev S102400x1 : Shape := ⟨2, ![102400, 1]⟩
abbrev S102400x256 : Shape := ⟨2, ![102400, 256]⟩
abbrev S1x256 : Shape := ⟨2, ![1, 256]⟩
abbrev S10240x256 : Shape := ⟨2, ![10240, 256]⟩
abbrev S10240x1 : Shape := ⟨2, ![10240, 1]⟩
abbrev S1024x256 : Shape := ⟨2, ![1024, 256]⟩
abbrev S1024 : Shape := ⟨1, ![1024]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 152
  | .vmem => 0
  | .smem => 0
  | _ => 0

abbrev hbmTy0_0 (i : Nat) : BufTy := match i % 128 with
  | 0 => ⟨S1000000x128, .f32⟩
  | 1 => ⟨S1024000, .i32⟩
  | 2 => ⟨S1024000, .i32⟩
  | 3 => ⟨S102400, .i32⟩
  | 4 => ⟨S102400, .i32⟩
  | 5 => ⟨S10240, .i32⟩
  | 6 => ⟨S10240, .i32⟩
  | 7 => ⟨S128x256, .f32⟩
  | 8 => ⟨S128x256, .f32⟩
  | 9 => ⟨S256, .f32⟩
  | 10 => ⟨S256x256, .f32⟩
  | 11 => ⟨S256x256, .f32⟩
  | 12 => ⟨S256, .f32⟩
  | 13 => ⟨S256x47, .f32⟩
  | 14 => ⟨S256x47, .f32⟩
  | 15 => ⟨S47, .f32⟩
  | 16 => ⟨S_, .i32⟩
  | 17 => ⟨S1024000, .i32⟩
  | 18 => ⟨S1024000, .i1⟩
  | 19 => ⟨S_, .i32⟩
  | 20 => ⟨S1024000, .i32⟩
  | 21 => ⟨S1024000, .i32⟩
  | 22 => ⟨S1024000, .i32⟩
  | 23 => ⟨S1024000x1, .i32⟩
  | 24 => ⟨S1024000x128, .f32⟩
  | 25 => ⟨S_, .f32⟩
  | 26 => ⟨S102400x128, .f32⟩
  | 27 => ⟨S1024000x1, .i32⟩
  | 28 => ⟨S102400x128, .f32⟩
  | 29 => ⟨S_, .f32⟩
  | 30 => ⟨S1024000, .f32⟩
  | 31 => ⟨S_, .f32⟩
  | 32 => ⟨S102400, .f32⟩
  | 33 => ⟨S1024000x1, .i32⟩
  | 34 => ⟨S102400, .f32⟩
  | 35 => ⟨S_, .f32⟩
  | 36 => ⟨S102400, .f32⟩
  | 37 => ⟨S102400, .f32⟩
  | 38 => ⟨S102400x1, .f32⟩
  | 39 => ⟨S102400x128, .f32⟩
  | 40 => ⟨S102400x128, .f32⟩
  | 41 => ⟨S102400x128, .f32⟩
  | 42 => ⟨S102400x256, .f32⟩
  | 43 => ⟨S102400x256, .f32⟩
  | 44 => ⟨S102400x256, .f32⟩
  | 45 => ⟨S1x256, .f32⟩
  | 46 => ⟨S102400x256, .f32⟩
  | 47 => ⟨S102400x256, .f32⟩
  | 48 => ⟨S_, .f32⟩
  | 49 => ⟨S102400x256, .f32⟩
  | 50 => ⟨S102400x256, .f32⟩
  | 51 => ⟨S102400x256, .f32⟩
  | 52 => ⟨S_, .f32⟩
  | 53 => ⟨S102400, .f32⟩
  | 54 => ⟨S102400x1, .f32⟩
  | 55 => ⟨S102400x1, .f32⟩
  | 56 => ⟨S_, .f32⟩
  | 57 => ⟨S102400x1, .f32⟩
  | 58 => ⟨S102400x1, .f32⟩
  | 59 => ⟨S102400x256, .f32⟩
  | 60 => ⟨S102400x256, .f32⟩
  | 61 => ⟨S_, .i32⟩
  | 62 => ⟨S102400, .i32⟩
  | 63 => ⟨S102400, .i1⟩
  | 64 => ⟨S_, .i32⟩
  | 65 => ⟨S102400, .i32⟩
  | 66 => ⟨S102400, .i32⟩
  | 67 => ⟨S102400, .i32⟩
  | 68 => ⟨S102400x1, .i32⟩
  | 69 => ⟨S102400x256, .f32⟩
  | 70 => ⟨S_, .f32⟩
  | 71 => ⟨S10240x256, .f32⟩
  | 72 => ⟨S102400x1, .i32⟩
  | 73 => ⟨S10240x256, .f32⟩
  | 74 => ⟨S_, .f32⟩
  | 75 => ⟨S102400, .f32⟩
  | 76 => ⟨S_, .f32⟩
  | 77 => ⟨S10240, .f32⟩
  | 78 => ⟨S102400x1, .i32⟩
  | 79 => ⟨S10240, .f32⟩
  | 80 => ⟨S_, .f32⟩
  | 81 => ⟨S10240, .f32⟩
  | 82 => ⟨S10240, .f32⟩
  | 83 => ⟨S10240x1, .f32⟩
  | 84 => ⟨S10240x256, .f32⟩
  | 85 => ⟨S10240x256, .f32⟩
  | 86 => ⟨S10240x256, .f32⟩
  | 87 => ⟨S10240x256, .f32⟩
  | 88 => ⟨S10240x256, .f32⟩
  | 89 => ⟨S10240x256, .f32⟩
  | 90 => ⟨S1x256, .f32⟩
  | 91 => ⟨S10240x256, .f32⟩
  | 92 => ⟨S10240x256, .f32⟩
  | 93 => ⟨S_, .f32⟩
  | 94 => ⟨S10240x256, .f32⟩
  | 95 => ⟨S10240x256, .f32⟩
  | 96 => ⟨S10240x256, .f32⟩
  | 97 => ⟨S_, .f32⟩
  | 98 => ⟨S10240, .f32⟩
  | 99 => ⟨S10240x1, .f32⟩
  | 100 => ⟨S10240x1, .f32⟩
  | 101 => ⟨S_, .f32⟩
  | 102 => ⟨S10240x1, .f32⟩
  | 103 => ⟨S10240x1, .f32⟩
  | 104 => ⟨S10240x256, .f32⟩
  | 105 => ⟨S10240x256, .f32⟩
  | 106 => ⟨S_, .i32⟩
  | 107 => ⟨S10240, .i32⟩
  | 108 => ⟨S10240, .i1⟩
  | 109 => ⟨S_, .i32⟩
  | 110 => ⟨S10240, .i32⟩
  | 111 => ⟨S10240, .i32⟩
  | 112 => ⟨S10240, .i32⟩
  | 113 => ⟨S10240x1, .i32⟩
  | 114 => ⟨S10240x256, .f32⟩
  | 115 => ⟨S_, .f32⟩
  | 116 => ⟨S1024x256, .f32⟩
  | 117 => ⟨S10240x1, .i32⟩
  | 118 => ⟨S1024x256, .f32⟩
  | 119 => ⟨S_, .f32⟩
  | 120 => ⟨S10240, .f32⟩
  | 121 => ⟨S_, .f32⟩
  | 122 => ⟨S1024, .f32⟩
  | 123 => ⟨S10240x1, .i32⟩
  | 124 => ⟨S1024, .f32⟩
  | 125 => ⟨S_, .f32⟩
  | 126 => ⟨S1024, .f32⟩
  | 127 => ⟨S1024, .f32⟩
  | _ => ⟨S1000000x128, .f32⟩

abbrev hbmTy0_1 (i : Nat) : BufTy := match i % 128 with
  | 0 => ⟨S1024x1, .f32⟩
  | 1 => ⟨S1024x256, .f32⟩
  | 2 => ⟨S1024x256, .f32⟩
  | 3 => ⟨S1024x256, .f32⟩
  | 4 => ⟨S1024x47, .f32⟩
  | 5 => ⟨S1024x47, .f32⟩
  | 6 => ⟨S1024x47, .f32⟩
  | 7 => ⟨S1x47, .f32⟩
  | 8 => ⟨S1024x47, .f32⟩
  | 9 => ⟨S1024x47, .f32⟩
  | 10 => ⟨S_, .f32⟩
  | 11 => ⟨S1024, .f32⟩
  | 12 => ⟨S_, .f32⟩
  | 13 => ⟨S1024, .f32⟩
  | 14 => ⟨S1024, .f32⟩
  | 15 => ⟨S1024x1, .f32⟩
  | 16 => ⟨S1024x47, .f32⟩
  | 17 => ⟨S1024x47, .f32⟩
  | 18 => ⟨S1024x47, .f32⟩
  | 19 => ⟨S_, .f32⟩
  | 20 => ⟨S1024, .f32⟩
  | 21 => ⟨S1024x1, .f32⟩
  | 22 => ⟨S1024x47, .f32⟩
  | 23 => ⟨S1024x47, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call2_cst : Ref sig .tc := ⟨.hbm, 93, rfl⟩
abbrev main_call2_v0 : Ref sig .tc := ⟨.hbm, 94, rfl⟩
abbrev main_v58 : Ref sig .tc := ⟨.hbm, 95, rfl⟩
abbrev main_call3_v0 : Ref sig .tc := ⟨.hbm, 96, rfl⟩
abbrev main_call3_cst : Ref sig .tc := ⟨.hbm, 97, rfl⟩
abbrev main_call3_v1 : Ref sig .tc := ⟨.hbm, 98, rfl⟩
abbrev main_call3_v2 : Ref sig .tc := ⟨.hbm, 99, rfl⟩
abbrev main_v59 : Ref sig .tc := ⟨.hbm, 100, rfl⟩
abbrev main_cst_11 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_12 : Ref sig .tc := ⟨.hbm, 106, rfl⟩
abbrev main_v64 : Ref sig .tc := ⟨.hbm, 107, rfl⟩
abbrev main_v65 : Ref sig .tc := ⟨.hbm, 108, rfl⟩
abbrev main_c_13 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_14 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_cst_16 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_17 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_18 : Ref sig .tc := ⟨.hbm, 138, rfl⟩
abbrev main_v90 : Ref sig .tc := ⟨.hbm, 139, rfl⟩
abbrev main_cst_19 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_20 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩

abbrev nD : Nat := 1
abbrev τ : Topo := Topo.v7x

variable {F : FTy → Type} [FloatOps F]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x128_0_1 : S102400x1.BroadcastsInDim S102400x128 (![0, 1] : Fin 2 → Fin S102400x128.rank)
  slices_S1000000x128_S102400x128_0_0 : S1000000x128.Slices ![0, 0] S102400x128
  bcast_S256_S1x256_1 : S256.BroadcastsInDim S1x256 (![1] : Fin 1 → Fin S1x256.rank)
  bcast_S1x256_S102400x256_0_1 : S1x256.BroadcastsInDim S102400x256 (![0, 1] : Fin 2 → Fin S102400x256.rank)
  bcast_S_S102400x256 : S_.BroadcastsInDim S102400x256 (![] : Fin 0 → Fin S102400x256.rank)
  reducesTo_S102400x256_S102400_d1 : S102400x256.ReducesTo [1] S102400
  h_S_ : 0 < S_.numel
  bcast_S_S102400x1 : S_.BroadcastsInDim S102400x1 (![] : Fin 0 → Fin S102400x1.rank)
  bcast_S102400x1_S102400x256_0_1 : S102400x1.BroadcastsInDim S102400x256 (![0, 1] : Fin 2 → Fin S102400x256.rank)
  bcast_S_S10240x256 : S_.BroadcastsInDim S10240x256 (![] : Fin 0 → Fin S10240x256.rank)
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x256_0_1 : S10240x1.BroadcastsInDim S10240x256 (![0, 1] : Fin 2 → Fin S10240x256.rank)
  slices_S102400x256_S10240x256_0_0 : S102400x256.Slices ![0, 0] S10240x256
  bcast_S1x256_S10240x256_0_1 : S1x256.BroadcastsInDim S10240x256 (![0, 1] : Fin 2 → Fin S10240x256.rank)
  reducesTo_S10240x256_S10240_d1 : S10240x256.ReducesTo [1] S10240
  bcast_S_S10240x1 : S_.BroadcastsInDim S10240x1 (![] : Fin 0 → Fin S10240x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S10240x256_S1024x256_0_0 : S10240x256.Slices ![0, 0] S1024x256
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  reducesTo_S1024x47_S1024_d1 : S1024x47.ReducesTo [1] S1024
  bcast_S1024x1_S1024x47_0_1 : S1024x1.BroadcastsInDim S1024x47 (![0, 1] : Fin 2 → Fin S1024x47.rank)
  gather_S1000000x128_S1024000x1_S1024000x128_1_0_n_n_0_1_1128_wf : GatherDims.WF S1000000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S102400x128_S128x256_S102400x256_1_0_0_1_n_n_wf : DotDims.WF S102400x128 S128x256 S102400x256 [1] [0] [0] [1] [] []
  gather_S102400x256_S102400x1_S102400x256_1_0_n_n_0_1_1256_wf : GatherDims.WF S102400x256 S102400x1 S102400x256 [1] [0] [] [0] [] 1 ![1, 256]
  scatter_S10240x256_S102400x1_S102400x256_1_0_0_1_wf : ScatterDims.WF S10240x256 S102400x1 S102400x256 [1] [0] [0] 1
  scatter_S10240_S102400x1_S102400_n_0_0_1_wf : ScatterDims.WF S10240 S102400x1 S102400 [] [0] [0] 1
  dot_S10240x256_S256x256_S10240x256_1_0_0_1_n_n_wf : DotDims.WF S10240x256 S256x256 S10240x256 [1] [0] [0] [1] [] []
  gather_S10240x256_S10240x1_S10240x256_1_0_n_n_0_1_1256_wf : GatherDims.WF S10240x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []

variable [Facts₀]

def gather_S1000000x128_S1024000x1_S1024000x128_1_0_n_n_0_1_1128 : GatherDims S1000000x128 S1024000x1 S1024000x128 where
  offsetDims := [1]
  collapsedSliceDims := [0]
  operandBatchingDims := []
  startIndicesBatchingDims := []
  startIndexMap := [0]
  indexVectorDim := 1
  sliceSizes := ![1, 128]
  wf := gather_S1000000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S102400x128_S128x256_S102400x256_1_0_0_1_n_n : DotDims S102400x128 S128x256 S102400x256 where
  lhsContracting := [1]
  rhsContracting := [0]
  lhsNonContracting := [0]
  rhsNonContracting := [1]
  lhsBatch := []
  rhsBatch := []
  wf := dot_S102400x128_S128x256_S102400x256_1_0_0_1_n_n_wf
def gather_S102400x256_S102400x1_S102400x256_1_0_n_n_0_1_1256 : GatherDims S102400x256 S102400x1 S102400x256 where
  offsetDims := [1]
  collapsedSliceDims := [0]
  operandBatchingDims := []
  startIndicesBatchingDims := []
  startIndexMap := [0]
  indexVectorDim := 1
  sliceSizes := ![1, 256]
  wf := gather_S102400x256_S102400x1_S102400x256_1_0_n_n_0_1_1256_wf
def scatter_S10240x256_S102400x1_S102400x256_1_0_0_1 : ScatterDims S10240x256 S102400x1 S102400x256 where
  updateWindowDims := [1]
  insertedWindowDims := [0]
  scatterDimsToOperandDims := [0]
  indexVectorDim := 1
  wf := scatter_S10240x256_S102400x1_S102400x256_1_0_0_1_wf
def scatter_S10240_S102400x1_S102400_n_0_0_1 : ScatterDims S10240 S102400x1 S102400 where
  updateWindowDims := []
  insertedWindowDims := [0]
  scatterDimsToOperandDims := [0]
  indexVectorDim := 1
  wf := scatter_S10240_S102400x1_S102400_n_0_0_1_wf
def dot_S10240x256_S256x256_S10240x256_1_0_0_1_n_n : DotDims S10240x256 S256x256 S10240x256 where
  lhsContracting := [1]
  rhsContracting := [0]
  lhsNonContracting := [0]
  rhsNonContracting := [1]
  lhsBatch := []
  rhsBatch := []
  wf := dot_S10240x256_S256x256_S10240x256_1_0_0_1_n_n_wf
def gather_S10240x256_S10240x1_S10240x256_1_0_n_n_0_1_1256 : GatherDims S10240x256 S10240x1 S10240x256 where
  offsetDims := [1]
  collapsedSliceDims := [0]
  operandBatchingDims := []
  startIndicesBatchingDims := []
  startIndexMap := [0]
  indexVectorDim := 1
  sliceSizes := ![1, 256]
  wf := gather_S10240x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.KernelRun.lean ====
import proofs.«181459_j11751030522721_1_alg».proof.Proof.Gen.KernelIdeal.Frame

/-! # The run of @main, read at every unscoped buffer

@main runs as six segments: three host stretches and three regions, alternating. Between segments the thread state
of a TensorCore is "every unscoped buffer at the boundary's contents", the contents being the fold `Gen.W0` …
`Gen.W6` of the launch memory through the segments. So every weakly fair execution terminates in a state whose
unscoped buffers hold `Gen.W6` (`run_held`); in particular the result buffer `main_v56` does, beside the sixteen
arguments at their launch contents (`run_result`). The last part reads argument buffers at the two inner region
exits `Gen.W2` and `Gen.W4`: no host operation and no region before those boundaries writes them, so they still
hold the launch contents there. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, read at every unscoped buffer -/

-- matching the launch theorem's conclusion against the statement unfolds plain definitions inside the type of an
-- argument still to be determined
set_option backward.isDefEq.respectTransparency.types false in
/-- From any launch memory with every semaphore counter at zero, every weakly fair execution of @main on the
    TensorCores terminates without a fault, and in every final state each unscoped TensorCore buffer holds the last
    boundary's contents `Gen.W6`. The launch deals each core its unscoped buffers at `Gen.W0`; the six segments carry
    them boundary by boundary to `Gen.W6`; a points-to for every unscoped buffer, held beside the state
    interpretation of a final state, reads each buffer's contents off that state's memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = Gen.W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
            = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-! ## The result buffer and the arguments -/

/-- The same run, read at the result buffer `main_v56` — it ends at the last boundary's contents — and at the
    sixteen arguments, each of which the fold walks back to the launch memory (`Gen.W6_main_argK`). -/
theorem run_result : θ_run defs (onTc (τ := τ) (main (F := F))) ⟨m, fun _ => 0, ρ⟩ (fun r => ∀ c : Dev nD,
      r.2.mem ((c.tc : Thread nD τ).loc main_v56) = Gen.W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v56 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c)⟩)
    (run_held m ρ)

/-! ## The arguments at the inner boundaries

An argument buffer that no operation of a host stretch writes reads the same after the stretch as before it
(`StableHlo.after_of_forall_not_mem`), and one that is not among a region's arrays reads the same at the region's
exit as at its entry (`Gen.W2_of_ne`, `Gen.W4_of_ne`). Chaining these from a boundary back to the launch gives the
argument's launch contents at that boundary. The boundaries' contents stay folded throughout: only the list of
written references of a stretch is computed. -/

/-- No operation of the host stretch `ops` writes the reference at hand: every operation writes one buffer, and the
    reference differs from each of them. -/
local macro "stretch_keeps " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-! ### At region 0's exit (`Gen.W2`): back through region 0 and the first host stretch -/

theorem W2_main_arg3 (c : Dev nD) :
    Gen.W2 m ρ c (Proc.devRef .tc main_arg3) = m ((c : Thread nD τ).loc main_arg3) :=
  calc Gen.W2 m ρ c (Proc.devRef .tc main_arg3)
    _ = Gen.W1 m ρ c (Proc.devRef .tc main_arg3) := W2_of_ne m ρ c main_arg3 (by decide)
    _ = Gen.W0 m ρ c (Proc.devRef .tc main_arg3) :=
        StableHlo.after_of_forall_not_mem (b := Proc.devRef .tc main_arg3) _ _ (by stretch_keeps hostOps0)
    _ = m ((c : Thread nD τ).loc main_arg3) := rfl

theorem W2_main_arg4 (c : Dev nD) :
    Gen.W2 m ρ c (Proc.devRef .tc main_arg4) = m ((c : Thread nD τ).loc main_arg4) :=
  calc Gen.W2 m ρ c (Proc.devRef .tc main_arg4)
    _ = Gen.W1 m ρ c (Proc.devRef .tc main_arg4) := W2_of_ne m ρ c main_arg4 (by decide)
    _ = Gen.W0 m ρ c (Proc.devRef .tc main_arg4) :=
        StableHlo.after_of_forall_not_mem (b := Proc.devRef .tc main_arg4) _ _ (by stretch_keeps hostOps0)
    _ = m ((c : Thread nD τ).loc main_arg4) := rfl

theorem W2_main_arg10 (c : Dev nD) :
    Gen.W2 m ρ c (Proc.devRef .tc main_arg10) = m ((c : Thread nD τ).loc main_arg10) :=
  calc Gen.W2 m ρ c (Proc.devRef .tc main_arg10)
    _ = Gen.W1 m ρ c (Proc.devRef .tc main_arg10) := W2_of_ne m ρ c main_arg10 (by decide)
    _ = Gen.W0 m ρ c (Proc.devRef .tc main_arg10) :=
        StableHlo.after_of_forall_not_mem (b := Proc.devRef .tc main_arg10) _ _ (by stretch_keeps hostOps0)
    _ = m ((c : Thread nD τ).loc main_arg10) := rfl

theorem W2_main_arg11 (c : Dev nD) :
    Gen.W2 m ρ c (Proc.devRef .tc main_arg11) = m ((c : Thread nD τ).loc main_arg11) :=
  calc Gen.W2 m ρ c (Proc.devRef .tc main_arg11)
    _ = Gen.W1 m ρ c (Proc.devRef .tc main_arg11) := W2_of_ne m ρ c main_arg11 (by decide)
    _ = Gen.W0 m ρ c (Proc.devRef .tc main_arg11) :=
        StableHlo.after_of_forall_not_mem (b := Proc.devRef .tc main_arg11) _ _ (by stretch_keeps hostOps0)
    _ = m ((c : Thread nD τ).loc main_arg11) := rfl

theorem W2_main_arg12 (c : Dev nD) :
    Gen.W2 m ρ c (Proc.devRef .tc main_arg12) = m ((c : Thread nD τ).loc main_arg12) :=
  calc Gen.W2 m ρ c (Proc.devRef .tc main_arg12)
    _ = Gen.W1 m ρ c (Proc.devRef .tc main_arg12) := W2_of_ne m ρ c main_arg12 (by decide)
    _ = Gen.W0 m ρ c (Proc.devRef .tc main_arg12) :=
        StableHlo.after_of_forall_not_mem (b := Proc.devRef .tc main_arg12) _ _ (by stretch_keeps hostOps0)
    _ = m ((c : Thread nD τ).loc main_arg12) := rfl

/-! ### At region 1's exit (`Gen.W4`): back through region 1, the second host stretch, region 0 and the first -/

theorem W4_main_arg5 (c : Dev nD) :
    Gen.W4 m ρ c (Proc.devRef .tc main_arg5) = m ((c : Thread nD τ).loc main_arg5) :=
  calc Gen.W4 m ρ c (Proc.devRef .tc main_arg5)
    _ = Gen.W3 m ρ c (Proc.devRef .tc main_arg5) := W4_of_ne m ρ c main_arg5 (by decide)
    _ = Gen.W2 m ρ c (Proc.devRef .tc main_arg5) :=
        StableHlo.after_of_forall_not_mem (b := Proc.devRef .tc main_arg5) _ _ (by stretch_keeps hostOps1)
    _ = Gen.W1 m ρ c (Proc.devRef .tc main_arg5) := W2_of_ne m ρ c main_arg5 (by decide)
    _ = Gen.W0 m ρ c (Proc.devRef .tc main_arg5) :=
        StableHlo.after_of_forall_not_mem (b := Proc.devRef .tc main_arg5) _ _ (by stretch_keeps hostOps0)
    _ = m ((c : Thread nD τ).loc main_arg5) := rfl

theorem W4_main_arg6 (c : Dev nD) :
    Gen.W4 m ρ c (Proc.devRef .tc main_arg6) = m ((c : Thread nD τ).loc main_arg6) :=
  calc Gen.W4 m ρ c (Proc.devRef .tc main_arg6)
    _ = Gen.W3 m ρ c (Proc.devRef .tc main_arg6) := W4_of_ne m ρ c main_arg6 (by decide)
    _ = Gen.W2 m ρ c (Proc.devRef .tc main_arg6) :=
        StableHlo.after_of_forall_not_mem (b := Proc.devRef .tc main_arg6) _ _ (by stretch_keeps hostOps1)
    _ = Gen.W1 m ρ c (Proc.devRef .tc main_arg6) := W2_of_ne m ρ c main_arg6 (by decide)
    _ = Gen.W0 m ρ c (Proc.devRef .tc main_arg6) :=
        StableHlo.after_of_forall_not_mem (b := Proc.devRef .tc main_arg6) _ _ (by stretch_keeps hostOps0)
    _ = m ((c : Thread nD τ).loc main_arg6) := rfl

theorem W4_main_arg13 (c : Dev nD) :
    Gen.W4 m ρ c (Proc.devRef .tc main_arg13) = m ((c : Thread nD τ).loc main_arg13) :=
  calc Gen.W4 m ρ c (Proc.devRef .tc main_arg13)
    _ = Gen.W3 m ρ c (Proc.devRef .tc main_arg13) := W4_of_ne m ρ c main_arg13 (by decide)
    _ = Gen.W2 m ρ c (Proc.devRef .tc main_arg13) :=
        StableHlo.after_of_forall_not_mem (b := Proc.devRef .tc main_arg13) _ _ (by stretch_keeps hostOps1)
    _ = Gen.W1 m ρ c (Proc.devRef .tc main_arg13) := W2_of_ne m ρ c main_arg13 (by decide)
    _ = Gen.W0 m ρ c (Proc.devRef .tc main_arg13) :=
        StableHlo.after_of_forall_not_mem (b := Proc.devRef .tc main_arg13) _ _ (by stretch_keeps hostOps0)
    _ = m ((c : Thread nD τ).loc main_arg13) := rfl

theorem W4_main_arg14 (c : Dev nD) :
    Gen.W4 m ρ c (Proc.devRef .tc main_arg14) = m ((c : Thread nD τ).loc main_arg14) :=
  calc Gen.W4 m ρ c (Proc.devRef .tc main_arg14)
    _ = Gen.W3 m ρ c (Proc.devRef .tc main_arg14) := W4_of_ne m ρ c main_arg14 (by decide)
    _ = Gen.W2 m ρ c (Proc.devRef .tc main_arg14) :=
        StableHlo.after_of_forall_not_mem (b := Proc.devRef .tc main_arg14) _ _ (by stretch_keeps hostOps1)
    _ = Gen.W1 m ρ c (Proc.devRef .tc main_arg14) := W2_of_ne m ρ c main_arg14 (by decide)
    _ = Gen.W0 m ρ c (Proc.devRef .tc main_arg14) :=
        StableHlo.after_of_forall_not_mem (b := Proc.devRef .tc main_arg14) _ _ (by stretch_keeps hostOps0)
    _ = m ((c : Thread nD τ).loc main_arg14) := rfl

theorem W4_main_arg15 (c : Dev nD) :
    Gen.W4 m ρ c (Proc.devRef .tc main_arg15) = m ((c : Thread nD τ).loc main_arg15) :=
  calc Gen.W4 m ρ c (Proc.devRef .tc main_arg15)
    _ = Gen.W3 m ρ c (Proc.devRef .tc main_arg15) := W4_of_ne m ρ c main_arg15 (by decide)
    _ = Gen.W2 m ρ c (Proc.devRef .tc main_arg15) :=
        StableHlo.after_of_forall_not_mem (b := Proc.devRef .tc main_arg15) _ _ (by stretch_keeps hostOps1)
    _ = Gen.W1 m ρ c (Proc.devRef .tc main_arg15) := W2_of_ne m ρ c main_arg15 (by decide)
    _ = Gen.W0 m ρ c (Proc.devRef .tc main_arg15) :=
        StableHlo.after_of_forall_not_mem (b := Proc.devRef .tc main_arg15) _ _ (by stretch_keeps hostOps0)
    _ = m ((c : Thread nD τ).loc main_arg15) := rfl

end Cert.KernelIdeal.Hand

end
-- ==== Proof.HostStretches.lean ====
import proofs.«181459_j11751030522721_1_alg».proof.Proof.KernelRun
import proofs.«181459_j11751030522721_1_alg».proof.Proof.Gen.ReferenceIdeal.Read
import Idealize.ShloMosaic.Lib.StableHlo.Run
import Idealize.ShloMosaic.Lib.ValueIdx

/-! # What each region finds in its input arrays

Before each region a host stretch prepares the region's inputs: the self rows (a slice), the summed messages (a gather
at wrapped indices, then a scatter-add), the in-degrees (a scatter-add of ones, as a column), the two weight matrices
(a narrowing format change) and the bias (untouched). The reference program performs the same operations on the same
values, and its read-back module names each stage as a function of @main's arguments (`Read.val_main_vN`). Here each
input array, as the kernel's run finds it at the region's entry (`Gen.V1`, `Gen.V3`, `Gen.V5`), is shown to BE the
reference's stage: one equation between whole arrays, at `Ideal`. The stretch's fold is computed at the one buffer
asked for, as the composition of its operations' functions on the contents the stretch starts from; the two programs'
shape and record constants have the same bodies, so the two sides then agree by unfolding definitions. No gather or
scatter is ever opened. -/

set_option maxRecDepth 16384

noncomputable section

namespace Cert.KernelIdeal.Hand

open Idealize.ShloMosaic Idealize.ShloMosaic.TcCoe Idealize.ShloMosaic.Tactic
open Idealize.SL.Sem Idealize.ShloMosaic.StableHlo
open Cert.KernelIdeal Cert.KernelIdeal.Gen
open Cert.ReferenceIdeal

variable (m : (ℓ : Loc nD τ sig) → Buf (Elt Ideal) ℓ) (ρ : Dev nD → PrngReg) (c : Dev nD)

/-! ## Region 0: its inputs after the first host stretch

The stretch runs from the launch contents `Gen.W0`, which are the arguments themselves. -/

/-- The self rows: the leading rows of the feature table. -/
theorem E0_hs : Gen.V1 m ρ c main_v14 = Read.val_main_v19 (F := Ideal) (m ((c : Thread nD τ).loc main_arg0)) := by
  show StableHlo.after hostOps0 _ (Proc.devRef .tc main_v14) = _
  after_results_simp
  rfl

/-- The summed messages: the feature table gathered at the wrapped source indices, scatter-added at the destinations. -/
theorem E0_msg : Gen.V1 m ρ c main_v9 = Read.val_main_v9 (F := Ideal) (m ((c : Thread nD τ).loc main_arg0)) (m ((c : Thread nD τ).loc main_arg1)) (m ((c : Thread nD τ).loc main_arg2)) := by
  show StableHlo.after hostOps0 _ (Proc.devRef .tc main_v9) = _
  after_results_simp
  rfl

/-- The in-degrees, as a column: row `P` of the column is entry `P` of the scatter-added ones. -/
theorem E0_deg (P : Fin 102400) :
    Gen.V1 m ρ c main_v17 (ValueIdx.ix2 P (0 : Fin 1)) = Read.val_main_v13 (F := Ideal) (m ((c : Thread nD τ).loc main_arg2)) (ValueIdx.ix1 P) := by
  have h : Gen.V1 m ρ c main_v17
      = broadcastInDim S102400x1 ![0] bcast_S102400_S102400x1_0 (Read.val_main_v13 (F := Ideal) (m ((c : Thread nD τ).loc main_arg2))) := by
    show StableHlo.after hostOps0 _ (Proc.devRef .tc main_v17) = _
    after_results_simp
    rfl
  rw [h]
  exact broadcastInDim_apply _ bcast_S102400_S102400x1_0 _ _ (ValueIdx.ix1 P) (fun a => match a with
    | ⟨0, _⟩ => by show P.val = if (102400 : Nat) = 1 then 0 else P.val; rw [if_neg (by decide)])

/-- The self weights: a narrowing format change is the identity on extended reals. -/
theorem E0_ws (i : S128x256.Idx) : Gen.V1 m ρ c main_v15 i = (m ((c : Thread nD τ).loc main_arg7)) i := by
  show StableHlo.after hostOps0 _ (Proc.devRef .tc main_v15) i = _
  after_results_simp
  rfl

/-- The neighbour weights, likewise. -/
theorem E0_wn (i : S128x256.Idx) : Gen.V1 m ρ c main_v16 i = (m ((c : Thread nD τ).loc main_arg8)) i := by
  show StableHlo.after hostOps0 _ (Proc.devRef .tc main_v16) i = _
  after_results_simp
  rfl

/-- The bias: no operation of the stretch writes it. -/
theorem E0_b : Gen.V1 m ρ c main_arg9 = (m ((c : Thread nD τ).loc main_arg9)) := by
  show StableHlo.after hostOps0 _ (Proc.devRef .tc main_arg9) = _
  after_results_simp

/-! ## Region 1: its inputs after the second host stretch

The stretch runs from region 0's exit contents `Gen.W2`. Its operations read region 0's output `main_v18`, which
the hypothesis `H1` names as the reference's stage `Read.val_main_v31`, and argument buffers, which still hold the launch
contents there (`W2_main_argK`). -/

/-- The self rows: the leading rows of region 0's output. -/
theorem E1_hs (H1 : Gen.W2 m ρ c (Proc.devRef .tc main_v18) = Read.val_main_v31 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) :
    Gen.V3 m ρ c main_v33 = Read.val_main_v51 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  show StableHlo.after hostOps1 _ (Proc.devRef .tc main_v33) = _
  after_results_simp
  rw [H1]
  rfl

/-- The summed messages: region 0's output gathered at the wrapped source indices, scatter-added at the destinations. -/
theorem E1_msg (H1 : Gen.W2 m ρ c (Proc.devRef .tc main_v18) = Read.val_main_v31 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) :
    Gen.V3 m ρ c main_v28 = Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  show StableHlo.after hostOps1 _ (Proc.devRef .tc main_v28) = _
  after_results_simp
  rw [H1, W2_main_arg3 m ρ c, W2_main_arg4 m ρ c]
  rfl

/-- The in-degrees, as a column: row `P` of the column is entry `P` of the scatter-added ones. -/
theorem E1_deg (P : Fin 10240) :
    Gen.V3 m ρ c main_v36 (ValueIdx.ix2 P (0 : Fin 1)) = Read.val_main_v45 (F := Ideal) (m ((c : Thread nD τ).loc main_arg4)) (ValueIdx.ix1 P) := by
  have h : Gen.V3 m ρ c main_v36
      = broadcastInDim S10240x1 ![0] bcast_S10240_S10240x1_0 (Read.val_main_v45 (F := Ideal) (m ((c : Thread nD τ).loc main_arg4))) := by
    show StableHlo.after hostOps1 _ (Proc.devRef .tc main_v36) = _
    after_results_simp
    rw [W2_main_arg4 m ρ c]
    rfl
  rw [h]
  exact broadcastInDim_apply _ bcast_S10240_S10240x1_0 _ _ (ValueIdx.ix1 P) (fun a => match a with
    | ⟨0, _⟩ => by show P.val = if (10240 : Nat) = 1 then 0 else P.val; rw [if_neg (by decide)])

/-- The self weights: a narrowing format change is the identity on extended reals. -/
theorem E1_ws (i : S256x256.Idx) : Gen.V3 m ρ c main_v34 i = (m ((c : Thread nD τ).loc main_arg10)) i := by
  show StableHlo.after hostOps1 _ (Proc.devRef .tc main_v34) i = _
  after_results_simp
  rw [W2_main_arg10 m ρ c]
  rfl

/-- The neighbour weights, likewise. -/
theorem E1_wn (i : S256x256.Idx) : Gen.V3 m ρ c main_v35 i = (m ((c : Thread nD τ).loc main_arg11)) i := by
  show StableHlo.after hostOps1 _ (Proc.devRef .tc main_v35) i = _
  after_results_simp
  rw [W2_main_arg11 m ρ c]
  rfl

/-- The bias: no operation of the stretch writes it. -/
theorem E1_b : Gen.V3 m ρ c main_arg12 = (m ((c : Thread nD τ).loc main_arg12)) := by
  show StableHlo.after hostOps1 _ (Proc.devRef .tc main_arg12) = _
  after_results_simp
  exact W2_main_arg12 m ρ c

/-! ## Region 2: its inputs after the third host stretch

The stretch runs from region 1's exit contents `Gen.W4`. Its operations read region 1's output `main_v37`, which
the hypothesis `H2` names as the reference's stage `Read.val_main_v63`, and argument buffers, which still hold the launch
contents there (`W4_main_argK`). -/

/-- The self rows: the leading rows of region 1's output. -/
theorem E2_hs (H2 : Gen.W4 m ρ c (Proc.devRef .tc main_v37) = Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    Gen.V5 m ρ c main_v52 = Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 _ (Proc.devRef .tc main_v52) = _
  after_results_simp
  rw [H2]
  rfl

/-- The summed messages: region 1's output gathered at the wrapped source indices, scatter-added at the destinations. -/
theorem E2_msg (H2 : Gen.W4 m ρ c (Proc.devRef .tc main_v37) = Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    Gen.V5 m ρ c main_v47 = Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 _ (Proc.devRef .tc main_v47) = _
  after_results_simp
  rw [H2, W4_main_arg5 m ρ c, W4_main_arg6 m ρ c]
  rfl

/-- The in-degrees, as a column: row `P` of the column is entry `P` of the scatter-added ones. -/
theorem E2_deg (P : Fin 1024) :
    Gen.V5 m ρ c main_v55 (ValueIdx.ix2 P (0 : Fin 1)) = Read.val_main_v77 (F := Ideal) (m ((c : Thread nD τ).loc main_arg6)) (ValueIdx.ix1 P) := by
  have h : Gen.V5 m ρ c main_v55
      = broadcastInDim S1024x1 ![0] bcast_S1024_S1024x1_0 (Read.val_main_v77 (F := Ideal) (m ((c : Thread nD τ).loc main_arg6))) := by
    show StableHlo.after hostOps2 _ (Proc.devRef .tc main_v55) = _
    after_results_simp
    rw [W4_main_arg6 m ρ c]
    rfl
  rw [h]
  exact broadcastInDim_apply _ bcast_S1024_S1024x1_0 _ _ (ValueIdx.ix1 P) (fun a => match a with
    | ⟨0, _⟩ => by show P.val = if (1024 : Nat) = 1 then 0 else P.val; rw [if_neg (by decide)])

/-- The self weights: a narrowing format change is the identity on extended reals. -/
theorem E2_ws (i : S256x47.Idx) : Gen.V5 m ρ c main_v53 i = (m ((c : Thread nD τ).loc main_arg13)) i := by
  show StableHlo.after hostOps2 _ (Proc.devRef .tc main_v53) i = _
  after_results_simp
  rw [W4_main_arg13 m ρ c]
  rfl

/-- The neighbour weights, likewise. -/
theorem E2_wn (i : S256x47.Idx) : Gen.V5 m ρ c main_v54 i = (m ((c : Thread nD τ).loc main_arg14)) i := by
  show StableHlo.after hostOps2 _ (Proc.devRef .tc main_v54) i = _
  after_results_simp
  rw [W4_main_arg14 m ρ c]
  rfl

/-- The bias: no operation of the stretch writes it. -/
theorem E2_b : Gen.V5 m ρ c main_arg15 = (m ((c : Thread nD τ).loc main_arg15)) := by
  show StableHlo.after hostOps2 _ (Proc.devRef .tc main_arg15) = _
  after_results_simp
  exact W4_main_arg15 m ρ c

end Cert.KernelIdeal.Hand

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«181459_j11751030522721_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«181459_j11751030522721_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRowNorm.lean ====
/-
  Row-wise L2 normalisation after a rectifier, on the extended reals.  For a matrix z the result is
      r / (sqrt (Σ_k r_{·,k}²) + ε),   r = max z 0,
  every row by itself.  Computed on a block of B rows with vector operations (a lane reduction, a cast of the
  row sums to a column, a broadcast of that column) it is, entry for entry, what the host computes on the whole
  M-row array with a reduce and broadcast_in_dim, whenever row p of the block is row P of the array.  No finiteness
  is asked of anything: both sides are the same expression of the row's entries.
  Also here: the two keepdims readings of broadcast_in_dim ([M] put on a column [M, 1]; a column [M, 1] repeated
  along [M, N]), a rank-0 constant broadcast anywhere, and the host's sum of a row from the zero word.
-/
import Idealize.ShloMosaic.PureOps.Ideal.Laws
import Idealize.ShloMosaic.Lib.ValueIdx
import Idealize.ShloMosaic.Lib.Pipeline.Value
import proofs.«181459_j11751030522721_1_alg».proof.Proof.LibKeepdims

noncomputable section

open scoped BigOperators

namespace Cert.Lib.RowNorm

open Idealize.ShloMosaic Idealize.ShloMosaic.ValueIdx Idealize.ShloMosaic.ValueKeepdims

variable {α : Type} {M B N : ℕ}

/-- A vector `[M]` put on axis 0 of the column `[M, 1]` reads, at `(P, u)`, the vector at `P`. -/
theorem inDimCol_apply (x : (⟨1, ![M]⟩ : Shape).Idx → α) (h : (⟨1, ![M]⟩ : Shape).BroadcastsInDim ⟨2, ![M, 1]⟩ ![0])
    (P : Fin M) (u : Fin 1) : broadcastInDim ⟨2, ![M, 1]⟩ ![0] h x (ix2 P u) = x (ix1 P) := by
  refine broadcastInDim_apply _ h x (ix2 P u) (ix1 P) fun a => ?_
  match a with
  | ⟨0, _⟩ =>
    show P.val = if M = 1 then 0 else P.val
    split
    · have := P.isLt; omega
    · rfl

/-- A column `[M, 1]` put on both axes of `[M, N]` reads, at `(P, q)`, the column at `(P, 0)`. -/
theorem inDimColRep_apply (x : (⟨2, ![M, 1]⟩ : Shape).Idx → α) (h : (⟨2, ![M, 1]⟩ : Shape).BroadcastsInDim ⟨2, ![M, N]⟩ ![0, 1])
    (P : Fin M) (q : Fin N) : broadcastInDim ⟨2, ![M, N]⟩ ![0, 1] h x (ix2 P q) = x (ix2 P (0 : Fin 1)) := by
  refine broadcastInDim_apply _ h x (ix2 P q) (ix2 P (0 : Fin 1)) fun a => ?_
  match a with
  | ⟨0, _⟩ =>
    show P.val = if M = 1 then 0 else P.val
    split
    · have := P.isLt; omega
    · rfl
  | ⟨1, _⟩ =>
    show (0 : ℕ) = if (1 : ℕ) = 1 then 0 else q.val
    rw [if_pos rfl]

/-- A rank-0 float constant broadcast to any shape reads, everywhere, the constant's value. -/
theorem inDimConst_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply _ h _ i ix0 fun a => a.elim0

/-- The host's sum of a matrix over its second axis from the zero word, at row `P`: the sum of the row's entries. -/
theorem hostRowSum (X : FVec Ideal ⟨2, ![M, N]⟩ .f32) (hR : (⟨2, ![M, N]⟩ : Shape).ReducesTo [1] ⟨1, ![M]⟩)
    (hr : (⟨2, ![M, N]⟩ : Shape).Reduces [1] ⟨1, ![M]⟩) (h0 : 0 < (⟨0, ![]⟩ : Shape).numel) (P : Fin M) :
    Host.reduceAdd (F := Ideal) X (constant ⟨0, ![]⟩ .f32 0x00000000#32) hR h0 (ix1 P) = ∑ k : Fin N, X (ix2 P k) := by
  simp only [Host.reduceAdd, Ideal.hostReduceAdd_def]
  rw [Ideal.hostReduceAdd_single hR hr, constant_apply, Ideal.ofBits_zero_f32, zero_add]
  exact Finset.sum_congr rfl fun k _ => congrArg X (lift_axis1_ix2 hr P k)

/-- The rectifier of a block against the splat zero and of the whole array against the broadcast rank-0 zero agree
    at corresponding entries. -/
theorem relu_entry (z : FVec Ideal ⟨2, ![B, N]⟩ .f32) (Z : FVec Ideal ⟨2, ![M, N]⟩ .f32)
    (b0 : (⟨0, ![]⟩ : Shape).BroadcastsInDim ⟨2, ![M, N]⟩ ![]) (p : Fin B) (P : Fin M) (q : Fin N)
    (hz : (z (ix2 p q) : EReal) = Z (ix2 P q)) :
    maximumf z (broadcast ⟨2, ![B, N]⟩ (Scalar.ofBits (F := Ideal) .f32 0x00000000#32)) (ix2 p q)
      = maximumf Z (broadcastInDim ⟨2, ![M, N]⟩ ![] b0 (constant (F := Ideal) ⟨0, ![]⟩ .f32 0x00000000#32)) (ix2 P q) := by
  rw [maximumf_apply, maximumf_apply, inDimConst_apply, hz]
  rfl

/-- Entry `(p, q)` of a row block's `relu z / (sqrt (Σ relu z ²) + ε)` is entry `(P, q)` of the whole array's, the
    block by vector operations and the array by host operations, when row `p` of the block is row `P` of the array. -/
theorem l2norm_row (e : BitVec 32) (z : FVec Ideal ⟨2, ![B, N]⟩ .f32) (Z : FVec Ideal ⟨2, ![M, N]⟩ .f32)
    (hred : (⟨2, ![B, N]⟩ : Shape).Reduces [1] ⟨1, ![B]⟩) (hφ : FKind.Formats .f32)
    (hacc : (0x00000000#32 : BitVec FTy.f32.bits) = FKind.add.neutral .f32 hφ)
    (hc : (⟨1, ![B]⟩ : Shape).ShapeCasts ⟨2, ![B, 1]⟩) (hb : (⟨2, ![B, 1]⟩ : Shape).Broadcasts ⟨2, ![B, N]⟩)
    (hR : (⟨2, ![M, N]⟩ : Shape).ReducesTo [1] ⟨1, ![M]⟩) (hr : (⟨2, ![M, N]⟩ : Shape).Reduces [1] ⟨1, ![M]⟩)
    (h0 : 0 < (⟨0, ![]⟩ : Shape).numel)
    (b0 : (⟨0, ![]⟩ : Shape).BroadcastsInDim ⟨2, ![M, N]⟩ ![]) (b0' : (⟨0, ![]⟩ : Shape).BroadcastsInDim ⟨2, ![M, 1]⟩ ![])
    (b1 : (⟨1, ![M]⟩ : Shape).BroadcastsInDim ⟨2, ![M, 1]⟩ ![0]) (b2 : (⟨2, ![M, 1]⟩ : Shape).BroadcastsInDim ⟨2, ![M, N]⟩ ![0, 1])
    (p : Fin B) (P : Fin M) (q : Fin N) (hz : ∀ q' : Fin N, (z (ix2 p q') : EReal) = Z (ix2 P q')) :
    divf (maximumf z (broadcast ⟨2, ![B, N]⟩ (Scalar.ofBits (F := Ideal) .f32 0x00000000#32)))
        (broadcastTo ⟨2, ![B, N]⟩
          (addf (sqrt (shapeCast ⟨2, ![B, 1]⟩
              (multiReduction .add [1] ⟨1, ![B]⟩
                (mulf (maximumf z (broadcast ⟨2, ![B, N]⟩ (Scalar.ofBits (F := Ideal) .f32 0x00000000#32)))
                  (maximumf z (broadcast ⟨2, ![B, N]⟩ (Scalar.ofBits (F := Ideal) .f32 0x00000000#32))))
                0x00000000#32 hred hφ hacc) hc))
            (broadcast ⟨2, ![B, 1]⟩ (Scalar.ofBits (F := Ideal) .f32 e))) hb) (ix2 p q)
      = Host.divf (maximumf Z (broadcastInDim ⟨2, ![M, N]⟩ ![] b0 (constant (F := Ideal) ⟨0, ![]⟩ .f32 0x00000000#32)))
          (broadcastInDim ⟨2, ![M, N]⟩ ![0, 1] b2
            (addf (Host.sqrt (broadcastInDim ⟨2, ![M, 1]⟩ ![0] b1
                (Host.reduceAdd
                  (mulf (maximumf Z (broadcastInDim ⟨2, ![M, N]⟩ ![] b0 (constant (F := Ideal) ⟨0, ![]⟩ .f32 0x00000000#32)))
                    (maximumf Z (broadcastInDim ⟨2, ![M, N]⟩ ![] b0 (constant (F := Ideal) ⟨0, ![]⟩ .f32 0x00000000#32))))
                  (constant (F := Ideal) ⟨0, ![]⟩ .f32 0x00000000#32) hR h0)))
              (broadcastInDim ⟨2, ![M, 1]⟩ ![] b0' (constant (F := Ideal) ⟨0, ![]⟩ .f32 e)))) (ix2 P q) := by
  have hrelu := fun q' => relu_entry z Z b0 p P q' (hz q')
  -- the two denominators: the row's root sum of squares plus ε, read at the row
  have hden : broadcastTo ⟨2, ![B, N]⟩
          (addf (sqrt (shapeCast ⟨2, ![B, 1]⟩
              (multiReduction .add [1] ⟨1, ![B]⟩
                (mulf (maximumf z (broadcast ⟨2, ![B, N]⟩ (Scalar.ofBits (F := Ideal) .f32 0x00000000#32)))
                  (maximumf z (broadcast ⟨2, ![B, N]⟩ (Scalar.ofBits (F := Ideal) .f32 0x00000000#32))))
                0x00000000#32 hred hφ hacc) hc))
            (broadcast ⟨2, ![B, 1]⟩ (Scalar.ofBits (F := Ideal) .f32 e))) hb (ix2 p q)
      = broadcastInDim ⟨2, ![M, N]⟩ ![0, 1] b2
            (addf (Host.sqrt (broadcastInDim ⟨2, ![M, 1]⟩ ![0] b1
                (Host.reduceAdd
                  (mulf (maximumf Z (broadcastInDim ⟨2, ![M, N]⟩ ![] b0 (constant (F := Ideal) ⟨0, ![]⟩ .f32 0x00000000#32)))
                    (maximumf Z (broadcastInDim ⟨2, ![M, N]⟩ ![] b0 (constant (F := Ideal) ⟨0, ![]⟩ .f32 0x00000000#32))))
                  (constant (F := Ideal) ⟨0, ![]⟩ .f32 0x00000000#32) hR h0)))
              (broadcastInDim ⟨2, ![M, 1]⟩ ![] b0' (constant (F := Ideal) ⟨0, ![]⟩ .f32 e))) (ix2 P q) := by
    rw [broadcastTo_a1_ab_apply, inDimColRep_apply, addf_apply, addf_apply, inDimConst_apply, broadcast_apply]
    refine congrArg (· + Ideal.ofBits .f32 e) ?_
    show Ideal.sqrt _ = Ideal.sqrt _
    refine congrArg Ideal.sqrt ?_
    rw [shapeCast_a_a1_apply, inDimCol_apply, multiReduction_add_row, hostRowSum _ hR hr h0]
    refine Finset.sum_congr rfl fun k _ => ?_
    rw [mulf_apply, mulf_apply, hrelu k]
  show Ideal.div _ _ = Ideal.div _ _
  rw [hden, hrelu q]

end Cert.Lib.RowNorm

end
-- ==== Proof.LibSagePre.lean ====
/-
  One mean-aggregating graph layer before its activation, on the extended reals: for node features x, summed
  neighbour messages s, in-degrees d, two weight matrices and a bias,
      z = x · Wₛ + (s / max d 1) · Wₙ + b,
  the quotient taken row by row.  Computed on a block of B rows with vector operations (the degree column clamped
  and broadcast along the row, two matrix products into zero accumulators, the bias cast to one row and repeated)
  it is, entry for entry, what the host computes on the whole M-row array (the degree vector clamped, put on a
  column and repeated, two dot_general, the bias put on by two broadcast_in_dim), whenever row p of the block is
  row P of the array.  The two sides are the same sums of the same products, so nothing is asked to be finite; a
  change of float format of an operand is the identity on the extended reals.
-/
import Idealize.ShloMosaic.PureOps.Ideal.Laws
import Idealize.ShloMosaic.Lib.ValueIdx
import Idealize.ShloMosaic.Lib.Pipeline.Value
import Idealize.ShloMosaic.Lib.ValueLayout
import proofs.«181459_j11751030522721_1_alg».proof.Proof.LibAffineRows
import proofs.«181459_j11751030522721_1_alg».proof.Proof.LibKeepdims
import proofs.«181459_j11751030522721_1_alg».proof.Proof.LibRowNorm

noncomputable section

open scoped BigOperators

namespace Cert.Lib.SagePre

open Idealize.ShloMosaic Idealize.ShloMosaic.ValueIdx Idealize.ShloMosaic.ValueKeepdims

variable {M B K N : ℕ}

/-- The clamped degree, broadcast along a row of the block, is the clamped degree broadcast along the same row of the
    whole array. -/
theorem degree_entry (one : BitVec 32) (deg : FVec Ideal ⟨2, ![B, 1]⟩ .f32) (DEG : FVec Ideal ⟨1, ![M]⟩ .f32)
    (hc11 : (⟨2, ![B, 1]⟩ : Shape).ShapeCasts ⟨2, ![B, 1]⟩) (hbK : (⟨2, ![B, 1]⟩ : Shape).Broadcasts ⟨2, ![B, K]⟩)
    (c0 : (⟨0, ![]⟩ : Shape).BroadcastsInDim ⟨1, ![M]⟩ ![]) (c1 : (⟨1, ![M]⟩ : Shape).BroadcastsInDim ⟨2, ![M, 1]⟩ ![0])
    (c2 : (⟨2, ![M, 1]⟩ : Shape).BroadcastsInDim ⟨2, ![M, K]⟩ ![0, 1])
    (p : Fin B) (P : Fin M) (k : Fin K) (hdeg : (deg (ix2 p (0 : Fin 1)) : EReal) = DEG (ix1 P)) :
    broadcastTo ⟨2, ![B, K]⟩ (maximumf (shapeCast ⟨2, ![B, 1]⟩ deg hc11) (broadcast ⟨2, ![B, 1]⟩ (Scalar.ofBits (F := Ideal) .f32 one))) hbK (ix2 p k)
      = broadcastInDim ⟨2, ![M, K]⟩ ![0, 1] c2 (broadcastInDim ⟨2, ![M, 1]⟩ ![0] c1
          (maximumf DEG (broadcastInDim ⟨1, ![M]⟩ ![] c0 (constant (F := Ideal) ⟨0, ![]⟩ .f32 one)))) (ix2 P k) := by
  rw [broadcastTo_a1_ab_apply, Cert.Lib.RowNorm.inDimColRep_apply, Cert.Lib.RowNorm.inDimCol_apply, maximumf_apply, maximumf_apply,
    Cert.Lib.RowNorm.inDimConst_apply, shapeCast_self, hdeg]
  rfl

/-- Entry `(p, q)` of a row block's `x · Wₛ + (s / max d 1) · Wₙ + b` is entry `(P, q)` of the whole array's. -/
theorem pre_row (one : BitVec 32) (prec prec' : Option ContractPrecision)
    (deg : FVec Ideal ⟨2, ![B, 1]⟩ .f32) (msg hs : FVec Ideal ⟨2, ![B, K]⟩ .f32) (ws wn : FVec Ideal ⟨2, ![K, N]⟩ .bf16)
    (b : FVec Ideal ⟨1, ![N]⟩ .f32)
    (DEG : FVec Ideal ⟨1, ![M]⟩ .f32) (MSG HS : FVec Ideal ⟨2, ![M, K]⟩ .f32) (WS WN : FVec Ideal ⟨2, ![K, N]⟩ .f32)
    (Bv : FVec Ideal ⟨1, ![N]⟩ .f32)
    (hc11 : (⟨2, ![B, 1]⟩ : Shape).ShapeCasts ⟨2, ![B, 1]⟩) (hcKK : (⟨2, ![B, K]⟩ : Shape).ShapeCasts ⟨2, ![B, K]⟩)
    (hcW : (⟨2, ![K, N]⟩ : Shape).ShapeCasts ⟨2, ![K, N]⟩) (hbK : (⟨2, ![B, 1]⟩ : Shape).Broadcasts ⟨2, ![B, K]⟩)
    (hlt : FTy.bf16.bits < FTy.f32.bits)
    (hcb : (⟨1, ![N]⟩ : Shape).ShapeCasts ⟨2, ![1, N]⟩) (hbb : (⟨2, ![1, N]⟩ : Shape).Broadcasts ⟨2, ![B, N]⟩)
    (c0 : (⟨0, ![]⟩ : Shape).BroadcastsInDim ⟨1, ![M]⟩ ![]) (c1 : (⟨1, ![M]⟩ : Shape).BroadcastsInDim ⟨2, ![M, 1]⟩ ![0])
    (c2 : (⟨2, ![M, 1]⟩ : Shape).BroadcastsInDim ⟨2, ![M, K]⟩ ![0, 1])
    (c3 : (⟨1, ![N]⟩ : Shape).BroadcastsInDim ⟨2, ![1, N]⟩ ![1]) (c4 : (⟨2, ![1, N]⟩ : Shape).BroadcastsInDim ⟨2, ![M, N]⟩ ![0, 1])
    (p : Fin B) (P : Fin M) (q : Fin N)
    (hhs : ∀ k : Fin K, (hs (ix2 p k) : EReal) = HS (ix2 P k)) (hmsg : ∀ k : Fin K, (msg (ix2 p k) : EReal) = MSG (ix2 P k))
    (hdeg : (deg (ix2 p (0 : Fin 1)) : EReal) = DEG (ix1 P))
    (hws : ∀ k : Fin K, (ws (ix2 k q) : EReal) = WS (ix2 k q)) (hwn : ∀ k : Fin K, (wn (ix2 k q) : EReal) = WN (ix2 k q))
    (hb : (b (ix1 q) : EReal) = Bv (ix1 q)) :
    addf (addf
        (matmul (DotDims.plain B K N) prec (truncf .bf16 (shapeCast ⟨2, ![B, K]⟩ hs hcKK) hlt) (shapeCast ⟨2, ![K, N]⟩ ws hcW)
          (constant (F := Ideal) ⟨2, ![B, N]⟩ .f32 0x00000000#32))
        (matmul (DotDims.plain B K N) prec
          (truncf .bf16 (divf (shapeCast ⟨2, ![B, K]⟩ msg hcKK)
            (broadcastTo ⟨2, ![B, K]⟩ (maximumf (shapeCast ⟨2, ![B, 1]⟩ deg hc11) (broadcast ⟨2, ![B, 1]⟩ (Scalar.ofBits (F := Ideal) .f32 one))) hbK)) hlt)
          (shapeCast ⟨2, ![K, N]⟩ wn hcW) (constant (F := Ideal) ⟨2, ![B, N]⟩ .f32 0x00000000#32)))
      (broadcastTo ⟨2, ![B, N]⟩ (shapeCast ⟨2, ![1, N]⟩ b hcb) hbb) (ix2 p q)
    = addf (addf (Host.dotGeneral (DotDims.plain M K N) prec' HS WS)
          (Host.dotGeneral (DotDims.plain M K N) prec'
            (Host.divf MSG (broadcastInDim ⟨2, ![M, K]⟩ ![0, 1] c2 (broadcastInDim ⟨2, ![M, 1]⟩ ![0] c1
              (maximumf DEG (broadcastInDim ⟨1, ![M]⟩ ![] c0 (constant (F := Ideal) ⟨0, ![]⟩ .f32 one)))))) WN))
        (broadcastInDim ⟨2, ![M, N]⟩ ![0, 1] c4 (broadcastInDim ⟨2, ![1, N]⟩ ![1] c3 Bv)) (ix2 P q) := by
  rw [addf_apply, addf_apply, addf_apply, addf_apply, Cert.Lib.AffineRows.castRow_apply, Cert.Lib.AffineRows.inDimRow_apply, hb]
  refine congrArg (· + Bv (ix1 q)) (congrArg₂ (· + ·) ?_ ?_)
  · refine Cert.Lib.RowBlock.matmul_eq_dotGeneral prec prec' .single HS WS _ _ P p q (fun k => ?_) (fun k => ?_)
    · rw [truncf_apply, shapeCast_self]; exact hhs k
    · rw [shapeCast_self]; exact hws k
  · refine Cert.Lib.RowBlock.matmul_eq_dotGeneral prec prec' .single _ WN _ _ P p q (fun k => ?_) (fun k => ?_)
    · rw [truncf_apply, divf_apply, shapeCast_self, hmsg k,
        degree_entry one deg DEG hc11 hbK c0 c1 c2 p P k hdeg]
      rfl
    · rw [shapeCast_self]; exact hwn k

end Cert.Lib.SagePre

end
-- ==== Proof.Layer0.lean ====
/-
  Region 0 (the first graph layer) as one array.  The region's grid has 50 points; point t works on rows
  2048·t … 2048·t + 2047: it reads those rows of the node features (the first 102400 rows of x), of the summed
  neighbour messages and of the in-degree column, the two weight matrices and the bias whole, and writes those rows of
  the output.  Entry (p, q) of what it writes is
      r / (sqrt (Σ_k r_k²) + ε),  r = max (x·Wₛ + (s / max d 1)·Wₙ + b) 0   at row 2048·t + p,
  which is entry (2048·t + p, q) of the reference's first layer, read as a function of the same arrays.  The blocks
  of the 50 points tile the rows 0 … 102399, so the output array after the region is the reference's first layer.
  Stated for any contents `V` of the TensorCore's buffers at the region's entry whose six input arrays are the
  reference's corresponding stages.
-/
import proofs.«181459_j11751030522721_1_alg».proof.Proof.Gen.KernelIdeal.Frame
import proofs.«181459_j11751030522721_1_alg».proof.Proof.Gen.ReferenceIdeal.Read
import proofs.«181459_j11751030522721_1_alg».proof.Proof.LibSagePre
import proofs.«181459_j11751030522721_1_alg».proof.Proof.LibRowNorm
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.ReferenceIdeal.Read

variable (A0 : (⟨Cert.ReferenceIdeal.S1000000x128, .f32⟩ : BufTy).Contents (Elt Ideal))
  (A1 A2 : (⟨Cert.ReferenceIdeal.S1024000, .i32⟩ : BufTy).Contents (Elt Ideal))
  (A7 A8 : (⟨Cert.ReferenceIdeal.S128x256, .f32⟩ : BufTy).Contents (Elt Ideal))
  (A9 : (⟨Cert.ReferenceIdeal.S256, .f32⟩ : BufTy).Contents (Elt Ideal))

/-- Entry `(p, q)` of the body's stored value is entry `(P, q)` of the reference's first layer, when the loaded
    blocks hold row `P` of the reference's operands at their row `p` and the weights and the bias whole. -/
theorem pay_entry (v0 : Vec Ideal S2048x1 .f32) (v4 v8 : Vec Ideal S2048x128 .f32) (v11 v15 : Vec Ideal S128x256 .bf16)
    (v19 : Vec Ideal S256 .f32) (p : Fin 2048) (P : Fin 102400) (q : Fin 256)
    (h8 : ∀ k : Fin 128, (v8 (ix2 p k) : EReal) = val_main_v19 (F := Ideal) A0 (ix2 P k))
    (h4 : ∀ k : Fin 128, (v4 (ix2 p k) : EReal) = val_main_v9 (F := Ideal) A0 A1 A2 (ix2 P k))
    (h0 : (v0 (ix2 p (0 : Fin 1)) : EReal) = val_main_v13 (F := Ideal) A2 (ix1 P))
    (h11 : ∀ (k : Fin 128) (j : Fin 256), (v11 (ix2 k j) : EReal) = A7 (ix2 k j))
    (h15 : ∀ (k : Fin 128) (j : Fin 256), (v15 (ix2 k j) : EReal) = A8 (ix2 k j))
    (h19 : ∀ j : Fin 256, (v19 (ix1 j) : EReal) = A9 (ix1 j)) :
    k0_pay1 (F := Ideal) v0 v4 v8 v11 v15 v19 (ix2 p q) = val_main_v31 (F := Ideal) A0 A1 A2 A7 A8 A9 (ix2 P q) := by
  unfold k0_pay1
  unfold val_main_v31 val_main_v30 val_main_v29 val_main_v28 val_main_cst_4 val_main_v27 val_main_call1_v2 val_main_call1_v1
    val_main_call1_cst val_main_call1_v0 val_main_v26 val_main_call0_v0 val_main_call0_cst
  refine Cert.Lib.RowNorm.l2norm_row (M := 102400) (B := 2048) (N := 256) 0x2B8CBCCC#32 _ (val_main_v25 (F := Ideal) A0 A1 A2 A7 A8 A9)
    _ _ _ _ _ _ (by decide) _ _ _ _ _ p P q (fun j => ?_)
  unfold val_main_v25 val_main_v24 val_main_v23 val_main_v22 val_main_v21 val_main_v20 val_main_v18 val_main_v17 val_main_v16
    val_main_v15 val_main_v14 val_main_cst_3
  exact Cert.Lib.SagePre.pre_row (M := 102400) (B := 2048) (K := 128) (N := 256) 0x3F800000#32 none none v0 v4 v8 v11 v15 v19
    (val_main_v13 (F := Ideal) A2) (val_main_v9 (F := Ideal) A0 A1 A2) (val_main_v19 (F := Ideal) A0) A7 A8 A9
    _ _ _ _ _ _ _ _ _ _ _ _ p P j h8 h4 h0 (fun k => h11 k j) (fun k => h15 k j) (h19 j)

theorem hz2 : (![0, 0] : Fin 2 → Nat) = fun _ => 0 := funext fun a => by fin_cases a <;> rfl
theorem hz1 : (![0] : Fin 1 → Nat) = fun _ => 0 := funext fun a => by fin_cases a <;> rfl

/-- The block index of every window at every grid point: the three row-blocked inputs and the output move with the
    point along the rows, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b)) (c : Dev nD)

/-- Row `p` of the feature block at point `t` is row `2048·t + p` of the feature array. -/
theorem blk_hs (t : Fin cfg0.N) (p : Fin 2048) (k : Fin 128) (P : Fin 102400) (hP : P.val = t.val * 2048 + p.val) :
    (iblk0 V c 0 t : Vec Ideal S2048x128 .f32) (ix2 p k) = (V c main_v14 : S102400x128.Idx → EReal) (ix2 P k) := by
  obtain ⟨e0, e1, -⟩ := idx_facts t
  unfold iblk0
  rw [View.read_apply]
  show V c main_v14 _ = V c main_v14 _
  congr 1
  funext a
  apply Fin.ext
  match a with
  | ⟨0, _⟩ => show win0_0.index t (0 : Fin 2) * 2048 + 1 * p.val = P.val; rw [e0, hP]; omega
  | ⟨1, _⟩ => show win0_0.index t (1 : Fin 2) * 128 + 1 * k.val = k.val; rw [e1]; omega

/-- The same for the block of summed messages. -/
theorem blk_msg (t : Fin cfg0.N) (p : Fin 2048) (k : Fin 128) (P : Fin 102400) (hP : P.val = t.val * 2048 + p.val) :
    (iblk0 V c 1 t : Vec Ideal S2048x128 .f32) (ix2 p k) = (V c main_v9 : S102400x128.Idx → EReal) (ix2 P k) := by
  obtain ⟨-, -, e0, e1, -⟩ := idx_facts t
  unfold iblk0
  rw [View.read_apply]
  show V c main_v9 _ = V c main_v9 _
  congr 1
  funext a
  apply Fin.ext
  match a with
  | ⟨0, _⟩ => show win0_1.index t (0 : Fin 2) * 2048 + 1 * p.val = P.val; rw [e0, hP]; omega
  | ⟨1, _⟩ => show win0_1.index t (1 : Fin 2) * 128 + 1 * k.val = k.val; rw [e1]; omega

/-- The same for the degree column. -/
theorem blk_deg (t : Fin cfg0.N) (p : Fin 2048) (P : Fin 102400) (hP : P.val = t.val * 2048 + p.val) :
    (iblk0 V c 2 t : Vec Ideal S2048x1 .f32) (ix2 p (0 : Fin 1)) = (V c main_v17 : S102400x1.Idx → EReal) (ix2 P (0 : Fin 1)) := by
  obtain ⟨-, -, -, -, e0, e1, -⟩ := idx_facts t
  unfold iblk0
  rw [View.read_apply]
  show V c main_v17 _ = V c main_v17 _
  congr 1
  funext a
  apply Fin.ext
  match a with
  | ⟨0, _⟩ => show win0_2.index t (0 : Fin 2) * 2048 + 1 * p.val = P.val; rw [e0, hP]; omega
  | ⟨1, _⟩ => show win0_2.index t (1 : Fin 2) * 1 + 1 * 0 = 0; rw [e1]

/-- The self weights are staged whole at every point. -/
theorem blk_ws (t : Fin cfg0.N) (k : Fin 128) (j : Fin 256) :
    (iblk0 V c 3 t : Vec Ideal S128x256 .bf16) (ix2 k j) = (V c main_v15 : S128x256.Idx → EReal) (ix2 k j) := by
  obtain ⟨-, -, -, -, -, -, e0, e1, -⟩ := idx_facts t
  unfold iblk0
  rw [View.read_apply]
  show V c main_v15 _ = V c main_v15 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * j.val = j.val; rw [e1]; omega

/-- So are the neighbour weights. -/
theorem blk_wn (t : Fin cfg0.N) (k : Fin 128) (j : Fin 256) :
    (iblk0 V c 4 t : Vec Ideal S128x256 .bf16) (ix2 k j) = (V c main_v16 : S128x256.Idx → EReal) (ix2 k j) := by
  obtain ⟨-, -, -, -, -, -, -, -, e0, e1, -⟩ := idx_facts t
  unfold iblk0
  rw [View.read_apply]
  show V c main_v16 _ = V c main_v16 _
  congr 1
  funext a
  apply Fin.ext
  match a with
  | ⟨0, _⟩ => show win0_4.index t (0 : Fin 2) * 128 + 1 * k.val = k.val; rw [e0]; omega
  | ⟨1, _⟩ => show win0_4.index t (1 : Fin 2) * 256 + 1 * j.val = j.val; rw [e1]; omega

/-- And the bias. -/
theorem blk_b (t : Fin cfg0.N) (j : Fin 256) :
    (iblk0 V c 5 t : Vec Ideal S256 .f32) (ix1 j) = (V c main_arg9 : S256.Idx → EReal) (ix1 j) := by
  obtain ⟨-, -, -, -, -, -, -, -, -, -, e0, -⟩ := idx_facts t
  unfold iblk0
  rw [View.read_apply]
  show V c main_arg9 _ = V c main_arg9 _
  congr 1
  funext a
  apply Fin.ext
  match a with
  | ⟨0, _⟩ => show win0_5.index t (0 : Fin 1) * 256 + 1 * j.val = j.val; rw [e0]; omega

variable (hhs : (V c main_v14 : S102400x128.Idx → EReal) = val_main_v19 (F := Ideal) A0)
  (hmsg : (V c main_v9 : S102400x128.Idx → EReal) = val_main_v9 (F := Ideal) A0 A1 A2)
  (hdeg : ∀ P : Fin 102400, (V c main_v17 : S102400x1.Idx → EReal) (ix2 P (0 : Fin 1)) = val_main_v13 (F := Ideal) A2 (ix1 P))
  (hws : ∀ i, (V c main_v15 : S128x256.Idx → EReal) i = A7 i) (hwn : ∀ i, (V c main_v16 : S128x256.Idx → EReal) i = A8 i)
  (hb : (V c main_arg9 : S256.Idx → EReal) = A9)

include hhs hmsg hdeg hws hwn hb in
/-- What point `t` writes back is block `t` of the reference's first layer. -/
theorem flushed_eq (t : Fin cfg0.N) :
    (dat0 V c).flushed 6 t = ((cfg0.win 6).blk t).view.read (Elt Ideal) (val_main_v31 (F := Ideal) A0 A1 A2 A7 A8 A9) := by
  have ht : t.val < 50 := lt_of_lt_of_eq t.isLt (show cfg0.N = 50 from N_0)
  obtain ⟨-, -, -, -, -, -, -, -, -, -, -, e0, e1⟩ := idx_facts t
  show (cfg0.win 6).cut (grid0.coords t) ((dat0 V c).after 6 t) = _
  rw [after0_6]
  unfold out0_6
  rw [View.canon_unit_zero hz2]
  simp only [View.ld_unit_zero (S := S2048x1) hz2, View.ld_unit_zero (S := S2048x128) hz2,
    View.ld_unit_zero (S := S128x256) hz2, View.ld_unit_zero (S := S256) hz1]
  funext j
  obtain ⟨p, q, rfl⟩ : ∃ (p : Fin 2048) (q : Fin 256), j = ix2 p q := ⟨j 0, j 1, eq_ix2 j⟩
  have hPlt : t.val * 2048 + p.val < 102400 := by have := p.isLt; omega
  have hemb : ((cfg0.win 6).blk t).view.emb (ix2 p q) = (ix2 (⟨t.val * 2048 + p.val, hPlt⟩ : Fin 102400) q : S102400x256.Idx) := by
    funext a
    apply Fin.ext
    match a with
    | ⟨0, _⟩ => show win0_6.index t (0 : Fin 2) * 2048 + 1 * p.val = t.val * 2048 + p.val; rw [e0]; omega
    | ⟨1, _⟩ => show win0_6.index t (1 : Fin 2) * 256 + 1 * q.val = q.val; rw [e1]; omega
  show k0_pay1 (F := Ideal) (iblk0 V c 2 t) (iblk0 V c 1 t) (iblk0 V c 0 t) (iblk0 V c 3 t) (iblk0 V c 4 t) (iblk0 V c 5 t) (ix2 p q)
    = val_main_v31 (F := Ideal) A0 A1 A2 A7 A8 A9 (((cfg0.win 6).blk t).view.emb (ix2 p q))
  rw [hemb]
  exact pay_entry A0 A1 A2 A7 A8 A9 (iblk0 V c 2 t) (iblk0 V c 1 t) (iblk0 V c 0 t) (iblk0 V c 3 t) (iblk0 V c 4 t) (iblk0 V c 5 t)
    p ⟨t.val * 2048 + p.val, hPlt⟩ q
    (fun k => (blk_hs V c t p k _ rfl).trans (congrFun hhs _))
    (fun k => (blk_msg V c t p k _ rfl).trans (congrFun hmsg _))
    ((blk_deg V c t p _ rfl).trans (hdeg _))
    (fun k j => (blk_ws V c t k j).trans (hws _))
    (fun k j => (blk_wn V c t k j).trans (hwn _))
    (fun j => (blk_b V c t j).trans (congrFun hb _))

/-- An index of the output array is in point `t`'s block iff each coordinate is in the block's range on its axis. -/
theorem mem_blk (t : Fin cfg0.N) (i : S102400x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v18).slice (win0_6.rect t)).set ↔ _
  rw [View.set_slice_whole, Rect.mem_set_unit]
  exact Iff.rfl

/-- Every row of the output array is in the block of the point its row block names. -/
theorem cover (i : S102400x256.Idx) : ∃ t : Fin cfg0.N, (cfg0.win 6).flush t = true ∧ i ∈ ((cfg0.win 6).blk t).view.set := by
  have hi0 : (i 0).val < 102400 := (i 0).isLt
  have hi1 : (i 1).val < 256 := (i 1).isLt
  have hlt : (i 0).val / 2048 < cfg0.N := by rw [show cfg0.N = 50 from N_0]; omega
  obtain ⟨-, -, -, -, -, -, -, -, -, -, -, e0, e1⟩ := idx_facts ⟨(i 0).val / 2048, hlt⟩
  refine ⟨⟨(i 0).val / 2048, hlt⟩, flush0_6 _, ?_⟩
  rw [mem_blk]
  intro a
  match a with
  | ⟨0, _⟩ =>
    show win0_6.index ⟨(i 0).val / 2048, hlt⟩ (0 : Fin 2) * 2048 ≤ (i 0).val ∧ (i 0).val < win0_6.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_6.index ⟨(i 0).val / 2048, hlt⟩ (1 : Fin 2) * 256 ≤ (i 1).val ∧ (i 1).val < win0_6.index ⟨(i 0).val / 2048, hlt⟩ (1 : Fin 2) * 256 + 256
    rw [e1]
    omega

include hhs hmsg hdeg hws hwn hb in
/-- The region's output array after its last point is the reference's first layer. -/
theorem arr : (dat0 V c).arrAt 6 cfg0.N = val_main_v31 (F := Ideal) A0 A1 A2 A7 A8 A9 :=
  (dat0 V c).arrAt_eq_of_cover 6 (val_main_v31 (F := Ideal) A0 A1 A2 A7 A8 A9)
    (fun t _ => flushed_eq A0 A1 A2 A7 A8 A9 V c hhs hmsg hdeg hws hwn hb t) (cover)

end Cert.KernelIdeal.Layer0

end
-- ==== Proof.Layer1.lean ====
/-
  Region 1 (the second graph layer) as one array.  The region's grid has 5 points; point t works on rows
  2048·t … 2048·t + 2047: it reads those rows of the first layer's output (its first 10240 rows), of the summed
  neighbour messages and of the in-degree column, the two weight matrices and the bias whole, and writes those rows of
  the output.  Entry (p, q) of what it writes is
      r / (sqrt (Σ_k r_k²) + ε),  r = max (h·Wₛ + (s / max d 1)·Wₙ + b) 0   at row 2048·t + p,
  which is entry (2048·t + p, q) of the reference's second layer, read as a function of the same arrays.  The blocks
  of the 5 points tile the rows 0 … 10239, so the output array after the region is the reference's second layer.
  Stated for any contents `V` of the TensorCore's buffers at the region's entry whose six input arrays are the
  reference's corresponding stages.
-/
import proofs.«181459_j11751030522721_1_alg».proof.Proof.Gen.KernelIdeal.Frame
import proofs.«181459_j11751030522721_1_alg».proof.Proof.Gen.ReferenceIdeal.Read
import proofs.«181459_j11751030522721_1_alg».proof.Proof.LibSagePre
import proofs.«181459_j11751030522721_1_alg».proof.Proof.LibRowNorm
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.ReferenceIdeal.Read

variable (A0 : (⟨Cert.ReferenceIdeal.S1000000x128, .f32⟩ : BufTy).Contents (Elt Ideal))
  (A1 A2 : (⟨Cert.ReferenceIdeal.S1024000, .i32⟩ : BufTy).Contents (Elt Ideal))
  (A3 A4 : (⟨Cert.ReferenceIdeal.S102400, .i32⟩ : BufTy).Contents (Elt Ideal))
  (A7 A8 : (⟨Cert.ReferenceIdeal.S128x256, .f32⟩ : BufTy).Contents (Elt Ideal))
  (A9 : (⟨Cert.ReferenceIdeal.S256, .f32⟩ : BufTy).Contents (Elt Ideal))
  (A10 A11 : (⟨Cert.ReferenceIdeal.S256x256, .f32⟩ : BufTy).Contents (Elt Ideal))
  (A12 : (⟨Cert.ReferenceIdeal.S256, .f32⟩ : BufTy).Contents (Elt Ideal))

/-- Entry `(p, q)` of the body's stored value is entry `(P, q)` of the reference's second layer, when the loaded
    blocks hold row `P` of the reference's operands at their row `p` and the weights and the bias whole. -/
theorem pay_entry (v0 : Vec Ideal S2048x1 .f32) (v4 v8 : Vec Ideal S2048x256 .f32) (v11 v15 : Vec Ideal S256x256 .bf16)
    (v19 : Vec Ideal S256 .f32) (p : Fin 2048) (P : Fin 10240) (q : Fin 256)
    (h8 : ∀ k : Fin 256, (v8 (ix2 p k) : EReal) = val_main_v51 (F := Ideal) A0 A1 A2 A7 A8 A9 (ix2 P k))
    (h4 : ∀ k : Fin 256, (v4 (ix2 p k) : EReal) = val_main_v41 (F := Ideal) A0 A1 A2 A3 A4 A7 A8 A9 (ix2 P k))
    (h0 : (v0 (ix2 p (0 : Fin 1)) : EReal) = val_main_v45 (F := Ideal) A4 (ix1 P))
    (h11 : ∀ (k : Fin 256) (j : Fin 256), (v11 (ix2 k j) : EReal) = A10 (ix2 k j))
    (h15 : ∀ (k : Fin 256) (j : Fin 256), (v15 (ix2 k j) : EReal) = A11 (ix2 k j))
    (h19 : ∀ j : Fin 256, (v19 (ix1 j) : EReal) = A12 (ix1 j)) :
    k1_pay1 (F := Ideal) v0 v4 v8 v11 v15 v19 (ix2 p q) = val_main_v63 (F := Ideal) A0 A1 A2 A3 A4 A7 A8 A9 A10 A11 A12 (ix2 P q) := by
  unfold k1_pay1
  unfold val_main_v63 val_main_v62 val_main_v61 val_main_v60 val_main_cst_11 val_main_v59 val_main_call3_v2 val_main_call3_v1
    val_main_call3_cst val_main_call3_v0 val_main_v58 val_main_call2_v0 val_main_call2_cst
  refine Cert.Lib.RowNorm.l2norm_row (M := 10240) (B := 2048) (N := 256) 0x2B8CBCCC#32 _ (val_main_v57 (F := Ideal) A0 A1 A2 A3 A4 A7 A8 A9 A10 A11 A12)
    _ _ _ _ _ _ (by decide) _ _ _ _ _ p P q (fun j => ?_)
  unfold val_main_v57 val_main_v56 val_main_v55 val_main_v54 val_main_v53 val_main_v52 val_main_v50 val_main_v49 val_main_v48
    val_main_v47 val_main_v46 val_main_cst_10
  exact Cert.Lib.SagePre.pre_row (M := 10240) (B := 2048) (K := 256) (N := 256) 0x3F800000#32 none none v0 v4 v8 v11 v15 v19
    (val_main_v45 (F := Ideal) A4) (val_main_v41 (F := Ideal) A0 A1 A2 A3 A4 A7 A8 A9) (val_main_v51 (F := Ideal) A0 A1 A2 A7 A8 A9) A10 A11 A12
    _ _ _ _ _ _ _ _ _ _ _ _ p P j h8 h4 h0 (fun k => h11 k j) (fun k => h15 k j) (h19 j)

theorem hz2 : (![0, 0] : Fin 2 → Nat) = fun _ => 0 := funext fun a => by fin_cases a <;> rfl
theorem hz1 : (![0] : Fin 1 → Nat) = fun _ => 0 := funext fun a => by fin_cases a <;> rfl

/-- The block index of every window at every grid point: the three row-blocked inputs and the output move with the
    point along the rows, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b)) (c : Dev nD)

/-- Row `p` of the feature block at point `t` is row `2048·t + p` of the first layer's output. -/
theorem blk_hs (t : Fin cfg1.N) (p : Fin 2048) (k : Fin 256) (P : Fin 10240) (hP : P.val = t.val * 2048 + p.val) :
    (iblk1 V c 0 t : Vec Ideal S2048x256 .f32) (ix2 p k) = (V c main_v33 : S10240x256.Idx → EReal) (ix2 P k) := by
  obtain ⟨e0, e1, -⟩ := idx_facts t
  unfold iblk1
  rw [View.read_apply]
  show V c main_v33 _ = V c main_v33 _
  congr 1
  funext a
  apply Fin.ext
  match a with
  | ⟨0, _⟩ => show win1_0.index t (0 : Fin 2) * 2048 + 1 * p.val = P.val; rw [e0, hP]; omega
  | ⟨1, _⟩ => show win1_0.index t (1 : Fin 2) * 256 + 1 * k.val = k.val; rw [e1]; omega

/-- The same for the block of summed messages. -/
theorem blk_msg (t : Fin cfg1.N) (p : Fin 2048) (k : Fin 256) (P : Fin 10240) (hP : P.val = t.val * 2048 + p.val) :
    (iblk1 V c 1 t : Vec Ideal S2048x256 .f32) (ix2 p k) = (V c main_v28 : S10240x256.Idx → EReal) (ix2 P k) := by
  obtain ⟨-, -, e0, e1, -⟩ := idx_facts t
  unfold iblk1
  rw [View.read_apply]
  show V c main_v28 _ = V c main_v28 _
  congr 1
  funext a
  apply Fin.ext
  match a with
  | ⟨0, _⟩ => show win1_1.index t (0 : Fin 2) * 2048 + 1 * p.val = P.val; rw [e0, hP]; omega
  | ⟨1, _⟩ => show win1_1.index t (1 : Fin 2) * 256 + 1 * k.val = k.val; rw [e1]; omega

/-- The same for the degree column. -/
theorem blk_deg (t : Fin cfg1.N) (p : Fin 2048) (P : Fin 10240) (hP : P.val = t.val * 2048 + p.val) :
    (iblk1 V c 2 t : Vec Ideal S2048x1 .f32) (ix2 p (0 : Fin 1)) = (V c main_v36 : S10240x1.Idx → EReal) (ix2 P (0 : Fin 1)) := by
  obtain ⟨-, -, -, -, e0, e1, -⟩ := idx_facts t
  unfold iblk1
  rw [View.read_apply]
  show V c main_v36 _ = V c main_v36 _
  congr 1
  funext a
  apply Fin.ext
  match a with
  | ⟨0, _⟩ => show win1_2.index t (0 : Fin 2) * 2048 + 1 * p.val = P.val; rw [e0, hP]; omega
  | ⟨1, _⟩ => show win1_2.index t (1 : Fin 2) * 1 + 1 * 0 = 0; rw [e1]

/-- The self weights are staged whole at every point. -/
theorem blk_ws (t : Fin cfg1.N) (k : Fin 256) (j : Fin 256) :
    (iblk1 V c 3 t : Vec Ideal S256x256 .bf16) (ix2 k j) = (V c main_v34 : S256x256.Idx → EReal) (ix2 k j) := by
  obtain ⟨-, -, -, -, -, -, e0, e1, -⟩ := idx_facts t
  unfold iblk1
  rw [View.read_apply]
  show V c main_v34 _ = V c main_v34 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * j.val = j.val; rw [e1]; omega

/-- So are the neighbour weights. -/
theorem blk_wn (t : Fin cfg1.N) (k : Fin 256) (j : Fin 256) :
    (iblk1 V c 4 t : Vec Ideal S256x256 .bf16) (ix2 k j) = (V c main_v35 : S256x256.Idx → EReal) (ix2 k j) := by
  obtain ⟨-, -, -, -, -, -, -, -, e0, e1, -⟩ := idx_facts t
  unfold iblk1
  rw [View.read_apply]
  show V c main_v35 _ = V c main_v35 _
  congr 1
  funext a
  apply Fin.ext
  match a with
  | ⟨0, _⟩ => show win1_4.index t (0 : Fin 2) * 256 + 1 * k.val = k.val; rw [e0]; omega
  | ⟨1, _⟩ => show win1_4.index t (1 : Fin 2) * 256 + 1 * j.val = j.val; rw [e1]; omega

/-- And the bias. -/
theorem blk_b (t : Fin cfg1.N) (j : Fin 256) :
    (iblk1 V c 5 t : Vec Ideal S256 .f32) (ix1 j) = (V c main_arg12 : S256.Idx → EReal) (ix1 j) := by
  obtain ⟨-, -, -, -, -, -, -, -, -, -, e0, -⟩ := idx_facts t
  unfold iblk1
  rw [View.read_apply]
  show V c main_arg12 _ = V c main_arg12 _
  congr 1
  funext a
  apply Fin.ext
  match a with
  | ⟨0, _⟩ => show win1_5.index t (0 : Fin 1) * 256 + 1 * j.val = j.val; rw [e0]; omega

variable (hhs : (V c main_v33 : S10240x256.Idx → EReal) = val_main_v51 (F := Ideal) A0 A1 A2 A7 A8 A9)
  (hmsg : (V c main_v28 : S10240x256.Idx → EReal) = val_main_v41 (F := Ideal) A0 A1 A2 A3 A4 A7 A8 A9)
  (hdeg : ∀ P : Fin 10240, (V c main_v36 : S10240x1.Idx → EReal) (ix2 P (0 : Fin 1)) = val_main_v45 (F := Ideal) A4 (ix1 P))
  (hws : ∀ i, (V c main_v34 : S256x256.Idx → EReal) i = A10 i) (hwn : ∀ i, (V c main_v35 : S256x256.Idx → EReal) i = A11 i)
  (hb : (V c main_arg12 : S256.Idx → EReal) = A12)

include hhs hmsg hdeg hws hwn hb in
/-- What point `t` writes back is block `t` of the reference's second layer. -/
theorem flushed_eq (t : Fin cfg1.N) :
    (dat1 V c).flushed 6 t = ((cfg1.win 6).blk t).view.read (Elt Ideal) (val_main_v63 (F := Ideal) A0 A1 A2 A3 A4 A7 A8 A9 A10 A11 A12) := by
  have ht : t.val < 5 := lt_of_lt_of_eq t.isLt (show cfg1.N = 5 from N_1)
  obtain ⟨-, -, -, -, -, -, -, -, -, -, -, e0, e1⟩ := idx_facts t
  show (cfg1.win 6).cut (grid1.coords t) ((dat1 V c).after 6 t) = _
  rw [after1_6]
  unfold out1_6
  rw [View.canon_unit_zero hz2]
  simp only [View.ld_unit_zero (S := S2048x1) hz2, View.ld_unit_zero (S := S2048x256) hz2,
    View.ld_unit_zero (S := S256x256) hz2, View.ld_unit_zero (S := S256) hz1]
  funext j
  obtain ⟨p, q, rfl⟩ : ∃ (p : Fin 2048) (q : Fin 256), j = ix2 p q := ⟨j 0, j 1, eq_ix2 j⟩
  have hPlt : t.val * 2048 + p.val < 10240 := by have := p.isLt; omega
  have hemb : ((cfg1.win 6).blk t).view.emb (ix2 p q) = (ix2 (⟨t.val * 2048 + p.val, hPlt⟩ : Fin 10240) q : S10240x256.Idx) := by
    funext a
    apply Fin.ext
    match a with
    | ⟨0, _⟩ => show win1_6.index t (0 : Fin 2) * 2048 + 1 * p.val = t.val * 2048 + p.val; rw [e0]; omega
    | ⟨1, _⟩ => show win1_6.index t (1 : Fin 2) * 256 + 1 * q.val = q.val; rw [e1]; omega
  show k1_pay1 (F := Ideal) (iblk1 V c 2 t) (iblk1 V c 1 t) (iblk1 V c 0 t) (iblk1 V c 3 t) (iblk1 V c 4 t) (iblk1 V c 5 t) (ix2 p q)
    = val_main_v63 (F := Ideal) A0 A1 A2 A3 A4 A7 A8 A9 A10 A11 A12 (((cfg1.win 6).blk t).view.emb (ix2 p q))
  rw [hemb]
  exact pay_entry A0 A1 A2 A3 A4 A7 A8 A9 A10 A11 A12 (iblk1 V c 2 t) (iblk1 V c 1 t) (iblk1 V c 0 t) (iblk1 V c 3 t) (iblk1 V c 4 t) (iblk1 V c 5 t)
    p ⟨t.val * 2048 + p.val, hPlt⟩ q
    (fun k => (blk_hs V c t p k _ rfl).trans (congrFun hhs _))
    (fun k => (blk_msg V c t p k _ rfl).trans (congrFun hmsg _))
    ((blk_deg V c t p _ rfl).trans (hdeg _))
    (fun k j => (blk_ws V c t k j).trans (hws _))
    (fun k j => (blk_wn V c t k j).trans (hwn _))
    (fun j => (blk_b V c t j).trans (congrFun hb _))

/-- An index of the output array is in point `t`'s block iff each coordinate is in the block's range on its axis. -/
theorem mem_blk (t : Fin cfg1.N) (i : S10240x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v37).slice (win1_6.rect t)).set ↔ _
  rw [View.set_slice_whole, Rect.mem_set_unit]
  exact Iff.rfl

/-- Every row of the output array is in the block of the point its row block names. -/
theorem cover (i : S10240x256.Idx) : ∃ t : Fin cfg1.N, (cfg1.win 6).flush t = true ∧ i ∈ ((cfg1.win 6).blk t).view.set := by
  have hi0 : (i 0).val < 10240 := (i 0).isLt
  have hi1 : (i 1).val < 256 := (i 1).isLt
  have hlt : (i 0).val / 2048 < cfg1.N := by rw [show cfg1.N = 5 from N_1]; omega
  obtain ⟨-, -, -, -, -, -, -, -, -, -, -, e0, e1⟩ := idx_facts ⟨(i 0).val / 2048, hlt⟩
  refine ⟨⟨(i 0).val / 2048, hlt⟩, flush1_6 _, ?_⟩
  rw [mem_blk]
  intro a
  match a with
  | ⟨0, _⟩ =>
    show win1_6.index ⟨(i 0).val / 2048, hlt⟩ (0 : Fin 2) * 2048 ≤ (i 0).val ∧ (i 0).val < win1_6.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win1_6.index ⟨(i 0).val / 2048, hlt⟩ (1 : Fin 2) * 256 ≤ (i 1).val ∧ (i 1).val < win1_6.index ⟨(i 0).val / 2048, hlt⟩ (1 : Fin 2) * 256 + 256
    rw [e1]
    omega

include hhs hmsg hdeg hws hwn hb in
/-- The region's output array after its last point is the reference's second layer. -/
theorem arr : (dat1 V c).arrAt 6 cfg1.N = val_main_v63 (F := Ideal) A0 A1 A2 A3 A4 A7 A8 A9 A10 A11 A12 :=
  (dat1 V c).arrAt_eq_of_cover 6 (val_main_v63 (F := Ideal) A0 A1 A2 A3 A4 A7 A8 A9 A10 A11 A12)
    (fun t _ => flushed_eq A0 A1 A2 A3 A4 A7 A8 A9 A10 A11 A12 V c hhs hmsg hdeg hws hwn hb t) (cover)

end Cert.KernelIdeal.Layer1

end
-- ==== Proof.LibRowSoftmax.lean ====
/-
  A row softmax computed two ways, read at one entry on the extended reals.

  The first computation works on a block of `B` rows of width `N` with vector operations: the row maximum by a
  `vector.multi_reduction <maximumf>` from `-∞`, taken once more against `-∞`, kept as a column (`shape_cast` then
  `broadcast`), subtracted; the exponential; the row sum by a `vector.multi_reduction <add>`, kept as a column in the
  same way; the quotient. The second works on a whole `M × N` matrix with the host's operations: `stablehlo.reduce`
  with a maximum body from `-∞`, a maximum against the broadcast `-∞`, two `broadcast_in_dim`, a subtraction, the
  exponential, `stablehlo.reduce` with an add body from `0`, two `broadcast_in_dim`, the quotient.

  When row `p` of the block is row `P` of the matrix, entry `(p, q)` of the first result is entry `(P, q)` of the
  second: both are `exp (x_q - m) / Σ_k exp (x_k - m)` with `m = max (-∞) (max_k x_k)`, where a fold of `max` and a
  finite sum do not depend on the order of their terms. Nothing is assumed finite.
-/
import Idealize.ShloMosaic.PureOps.Ideal.Laws
import Idealize.ShloMosaic.Lib.ValueIdx
import Idealize.ShloMosaic.Lib.Pipeline.Value
import proofs.«181459_j11751030522721_1_alg».proof.Proof.LibKeepdims

noncomputable section

namespace Cert.Lib.RowSoftmax

open Idealize.ShloMosaic Idealize.ShloMosaic.ValueIdx Idealize.ShloMosaic.ValueKeepdims

/-! ## The two ways of keeping a row quantity as a column and spreading it over the row -/

/-- A vector of `a` entries cast to a column and broadcast over `b` columns reads, at `(i, j)`, the vector at `i`. -/
theorem column_spread_apply {α : Type} {a b : ℕ} (v : (⟨1, ![a]⟩ : Shape).Idx → α)
    (hSC : (⟨1, ![a]⟩ : Shape).ShapeCasts ⟨2, ![a, 1]⟩) (hBC : (⟨2, ![a, 1]⟩ : Shape).Broadcasts ⟨2, ![a, b]⟩)
    (i : Fin a) (j : Fin b) :
    broadcastTo ⟨2, ![a, b]⟩ (shapeCast ⟨2, ![a, 1]⟩ v hSC) hBC (ix2 i j) = v (ix1 i) :=
  (broadcastTo_a1_ab_apply _ hBC i j).trans (shapeCast_a_a1_apply v hSC i 0)

/-- A vector of `a` entries broadcast in dimension `0` to a column reads, at `(i, u)`, the vector at `i`. -/
theorem broadcastInDim_a_a1_apply {α : Type} {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column of `a` entries broadcast in dimensions `0, 1` over `b` columns reads, at `(i, j)`, the column at `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (i : Fin a) (j : Fin b) : broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The two together: a vector broadcast to a column and then over `b` columns reads, at `(i, j)`, the vector at `i`. -/
theorem host_column_spread_apply {α : Type} {a b : ℕ} (v : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (i : Fin a) (j : Fin b) :
    broadcastInDim ⟨2, ![a, b]⟩ ![0, 1] h2 (broadcastInDim ⟨2, ![a, 1]⟩ ![0] h1 v) (ix2 i j) = v (ix1 i) :=
  (broadcastInDim_a1_ab_apply _ h2 i j).trans (broadcastInDim_a_a1_apply v h1 i 0)

/-! ## The host's two row reductions read at a row -/

/-- A reduction over the second axis into a vector is, in particular, one into a shape of positive rank. -/
theorem reduces_of_reducesTo {a b : ℕ} (h : (⟨2, ![a, b]⟩ : Shape).ReducesTo [1] (⟨1, ![a]⟩ : Shape)) :
    (⟨2, ![a, b]⟩ : Shape).Reduces [1] (⟨1, ![a]⟩ : Shape) := by
  obtain ⟨h1, h2⟩ := h
  exact ⟨h1, Nat.one_pos, h2⟩

/-- The host's `stablehlo.reduce` with a maximum body of an `[a, b]` matrix over its second axis, from a rank-zero constant,
    read on the extended reals at row `i`: the fold of `max`, from the constant's value, over the row's entries. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (hu : 0 < (⟨0, ![]⟩ : Shape).numel) (i : Fin a) :
    Host.reduce (FloatOps.maximumf (F := Ideal) (φ := .f32)) x (constant (F := Ideal) ⟨0, ![]⟩ .f32 w) h' hu (ix1 i)
      = (Finset.univ : Finset (Fin b)).fold max (Ideal.ofBits .f32 w) (fun k => x (ix2 i k)) := by
  have h := reduces_of_reducesTo h'
  rw [Host.reduce_eq_fold_single (FloatOps.maximumf (F := Ideal) (φ := .f32)) x _ h' h hu]
  have hf : (x ∘ h.lift (ix1 i)) = fun k : Fin b => x (ix2 i k) :=
    funext fun k => congrArg x (lift_axis1_ix2 h i k)
  exact congrArg (fun f => Finset.fold max (Ideal.ofBits .f32 w) f (Finset.univ : Finset (Fin b))) hf

/-- The host's `stablehlo.reduce` with an add body of an `[a, b]` matrix over its second axis, from a rank-zero constant,
    read on the extended reals at row `i`: the constant's value plus the sum of the row's entries. -/
theorem hostReduceAdd_row {a b : ℕ} (x : FVec Ideal ⟨2, ![a, b]⟩ .f32) (w : BitVec 32)
    (h' : (⟨2, ![a, b]⟩ : Shape).ReducesTo [1] (⟨1, ![a]⟩ : Shape)) (hu : 0 < (⟨0, ![]⟩ : Shape).numel) (i : Fin a) :
    Host.reduceAdd (F := Ideal) x (constant (F := Ideal) ⟨0, ![]⟩ .f32 w) h' hu (ix1 i)
      = Ideal.ofBits .f32 w + ∑ k : Fin b, x (ix2 i k) := by
  have h := reduces_of_reducesTo h'
  show Ideal.hostReduceAdd h' x (Ideal.ofBits .f32 w) (ix1 i) = _
  rw [Ideal.hostReduceAdd_single h' h]
  exact congrArg (_ + ·) (Finset.sum_congr rfl fun k _ => congrArg x (lift_axis1_ix2 h i k))

/-! ## The block's side -/

/-- The block's row maximum, taken once more against `-∞`'s word, at row `i`. -/
theorem kernel_rowmax_apply {a b : ℕ} (z : FVec Ideal ⟨2, ![a, b]⟩ .f32) (w : BitVec 32)
    (hR : (⟨2, ![a, b]⟩ : Shape).Reduces [1] (⟨1, ![a]⟩ : Shape)) (hφ : FKind.Formats .f32)
    (hacc : w = FKind.maximumf.neutral .f32 hφ) (i : Fin a) :
    maximumf (broadcast ⟨1, ![a]⟩ (FloatOps.ofBits (F := Ideal) .f32 w))
        (multiReduction (F := Ideal) .maximumf [1] ⟨1, ![a]⟩ z w hR hφ hacc) (ix1 i)
      = max (Ideal.ofBits .f32 w) ((Finset.univ : Finset (Fin b)).fold max (Ideal.ofBits .f32 w) (fun k => z (ix2 i k))) :=
  congrArg (max (Ideal.ofBits .f32 w)) (multiReduction_maximumf_row z w hR hφ hacc i)

/-- The host's row maximum, taken once more against the broadcast `-∞`'s word, at row `i`. -/
theorem host_rowmax_apply {a b : ℕ} (Z : FVec Ideal ⟨2, ![a, b]⟩ .f32) (w : BitVec 32)
    (h' : (⟨2, ![a, b]⟩ : Shape).ReducesTo [1] (⟨1, ![a]⟩ : Shape)) (hu : 0 < (⟨0, ![]⟩ : Shape).numel)
    (hb0 : (⟨0, ![]⟩ : Shape).BroadcastsInDim ⟨1, ![a]⟩ (![] : Fin 0 → Fin (⟨1, ![a]⟩ : Shape).rank)) (i : Fin a) :
    maximumf (broadcastInDim ⟨1, ![a]⟩ ![] hb0 (constant (F := Ideal) ⟨0, ![]⟩ .f32 w))
        (Host.reduce (FloatOps.maximumf (F := Ideal) (φ := .f32)) Z (constant (F := Ideal) ⟨0, ![]⟩ .f32 w) h' hu) (ix1 i)
      = max (Ideal.ofBits .f32 w) ((Finset.univ : Finset (Fin b)).fold max (Ideal.ofBits .f32 w) (fun k => Z (ix2 i k))) :=
  congrArg (max (Ideal.ofBits .f32 w)) (hostReduce_maximumf_row Z w h' hu i)

/-- The block's shifted exponentials at `(i, j)`: `exp (z_j - m)`, `m` the row's maximum taken against `-∞`'s word. -/
theorem kernel_exp_apply {a b : ℕ} (z : FVec Ideal ⟨2, ![a, b]⟩ .f32) (w : BitVec 32)
    (hR : (⟨2, ![a, b]⟩ : Shape).Reduces [1] (⟨1, ![a]⟩ : Shape)) (hφ : FKind.Formats .f32)
    (hacc : w = FKind.maximumf.neutral .f32 hφ)
    (hSC : (⟨1, ![a]⟩ : Shape).ShapeCasts ⟨2, ![a, 1]⟩) (hBC : (⟨2, ![a, 1]⟩ : Shape).Broadcasts ⟨2, ![a, b]⟩)
    (i : Fin a) (j : Fin b) :
    exp (subf z (broadcastTo ⟨2, ![a, b]⟩ (shapeCast ⟨2, ![a, 1]⟩
        (maximumf (broadcast ⟨1, ![a]⟩ (FloatOps.ofBits (F := Ideal) .f32 w))
          (multiReduction (F := Ideal) .maximumf [1] ⟨1, ![a]⟩ z w hR hφ hacc)) hSC) hBC)) (ix2 i j)
      = Ideal.exp (z (ix2 i j) - max (Ideal.ofBits .f32 w)
          ((Finset.univ : Finset (Fin b)).fold max (Ideal.ofBits .f32 w) (fun k => z (ix2 i k)))) := by
  show Ideal.exp (z (ix2 i j) - broadcastTo ⟨2, ![a, b]⟩ (shapeCast ⟨2, ![a, 1]⟩ _ hSC) hBC (ix2 i j)) = _
  rw [column_spread_apply, kernel_rowmax_apply]

/-- The block's quotient by the row sum kept as a column, at `(i, j)`: the entry over the sum of the row's entries. -/
theorem kernel_quotient_apply {a b : ℕ} (E : FVec Ideal ⟨2, ![a, b]⟩ .f32) (w : BitVec 32)
    (hR : (⟨2, ![a, b]⟩ : Shape).Reduces [1] (⟨1, ![a]⟩ : Shape)) (hφ : FKind.Formats .f32)
    (hacc : w = FKind.add.neutral .f32 hφ)
    (hSC : (⟨1, ![a]⟩ : Shape).ShapeCasts ⟨2, ![a, 1]⟩) (hBC : (⟨2, ![a, 1]⟩ : Shape).Broadcasts ⟨2, ![a, b]⟩)
    (i : Fin a) (j : Fin b) :
    divf E (broadcastTo ⟨2, ![a, b]⟩ (shapeCast ⟨2, ![a, 1]⟩
        (multiReduction (F := Ideal) .add [1] ⟨1, ![a]⟩ E w hR hφ hacc) hSC) hBC) (ix2 i j)
      = Ideal.div (E (ix2 i j)) (∑ k : Fin b, E (ix2 i k)) := by
  show Ideal.div (E (ix2 i j)) (broadcastTo ⟨2, ![a, b]⟩ (shapeCast ⟨2, ![a, 1]⟩ _ hSC) hBC (ix2 i j)) = _
  rw [column_spread_apply, multiReduction_add_row]

/-! ## The host's side -/

/-- The host's shifted exponentials at `(i, j)`: `exp (Z_j - m)`, `m` the row's maximum taken against `-∞`'s word. -/
theorem host_exp_apply {a b : ℕ} (Z : FVec Ideal ⟨2, ![a, b]⟩ .f32) (w : BitVec 32)
    (h' : (⟨2, ![a, b]⟩ : Shape).ReducesTo [1] (⟨1, ![a]⟩ : Shape)) (hu : 0 < (⟨0, ![]⟩ : Shape).numel)
    (hb0 : (⟨0, ![]⟩ : Shape).BroadcastsInDim ⟨1, ![a]⟩ (![] : Fin 0 → Fin (⟨1, ![a]⟩ : Shape).rank))
    (hb1 : (⟨1, ![a]⟩ : Shape).BroadcastsInDim ⟨2, ![a, 1]⟩ (![0] : Fin 1 → Fin (⟨2, ![a, 1]⟩ : Shape).rank))
    (hb2 : (⟨2, ![a, 1]⟩ : Shape).BroadcastsInDim ⟨2, ![a, b]⟩ (![0, 1] : Fin 2 → Fin (⟨2, ![a, b]⟩ : Shape).rank))
    (i : Fin a) (j : Fin b) :
    Host.exp (subf Z (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 w))
          (Host.reduce (FloatOps.maximumf (F := Ideal) (φ := .f32)) Z (constant (F := Ideal) ⟨0, ![]⟩ .f32 w) h' hu))))) (ix2 i j)
      = Ideal.exp (Z (ix2 i j) - max (Ideal.ofBits .f32 w)
          ((Finset.univ : Finset (Fin b)).fold max (Ideal.ofBits .f32 w) (fun k => Z (ix2 i k)))) := by
  show Ideal.exp (Z (ix2 i j) - broadcastInDim ⟨2, ![a, b]⟩ ![0, 1] hb2 (broadcastInDim (s := ⟨1, ![a]⟩) ⟨2, ![a, 1]⟩ ![0] hb1 _) (ix2 i j)) = _
  rw [host_column_spread_apply, host_rowmax_apply]

/-- The host's quotient by the row sum from `0` kept as a column, at `(i, j)`: the entry over the sum of the row's entries. -/
theorem host_quotient_apply {a b : ℕ} (E : FVec Ideal ⟨2, ![a, b]⟩ .f32)
    (h' : (⟨2, ![a, b]⟩ : Shape).ReducesTo [1] (⟨1, ![a]⟩ : Shape)) (hu : 0 < (⟨0, ![]⟩ : Shape).numel)
    (hb1 : (⟨1, ![a]⟩ : Shape).BroadcastsInDim ⟨2, ![a, 1]⟩ (![0] : Fin 1 → Fin (⟨2, ![a, 1]⟩ : Shape).rank))
    (hb2 : (⟨2, ![a, 1]⟩ : Shape).BroadcastsInDim ⟨2, ![a, b]⟩ (![0, 1] : Fin 2 → Fin (⟨2, ![a, b]⟩ : Shape).rank))
    (i : Fin a) (j : Fin b) :
    Host.divf E (broadcastInDim ⟨2, ![a, b]⟩ ![0, 1] hb2 (broadcastInDim ⟨2, ![a, 1]⟩ ![0] hb1
        (Host.reduceAdd (F := Ideal) E (constant (F := Ideal) ⟨0, ![]⟩ .f32 0x00000000#32) h' hu))) (ix2 i j)
      = Ideal.div (E (ix2 i j)) (∑ k : Fin b, E (ix2 i k)) := by
  show Ideal.div (E (ix2 i j)) (broadcastInDim ⟨2, ![a, b]⟩ ![0, 1] hb2 (broadcastInDim (s := ⟨1, ![a]⟩) ⟨2, ![a, 1]⟩ ![0] hb1 _) (ix2 i j)) = _
  rw [host_column_spread_apply, hostReduceAdd_row, Ideal.ofBits_zero_f32, zero_add]

/-! ## The two sides meet -/

/-- ROW SOFTMAX, BLOCK AGAINST WHOLE MATRIX. `z` is a block of `B` rows and `Z` a matrix of `M` rows, both `N` wide; row
    `p` of the block is row `P` of the matrix (`hz`). Then the block's softmax by the vector operations, read at `(p, q)`, is
    the matrix's softmax by the host's operations, read at `(P, q)`: on the extended reals both are
    `exp (x_q - m) / Σ_k exp (x_k - m)` with `m = max (-∞) (max_k x_k)` over the common row `x`. The remaining hypotheses
    are the shape conditions the operations ask for. -/
theorem softmax_row {M B N : ℕ} (z : FVec Ideal ⟨2, ![B, N]⟩ .f32) (Z : FVec Ideal ⟨2, ![M, N]⟩ .f32)
    (hR : (⟨2, ![B, N]⟩ : Shape).Reduces [1] (⟨1, ![B]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![B]⟩ : Shape).ShapeCasts ⟨2, ![B, 1]⟩) (hBC : (⟨2, ![B, 1]⟩ : Shape).Broadcasts ⟨2, ![B, N]⟩)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank))
    (p : Fin B) (P : Fin M) (q : Fin N)
    (hz : ∀ q' : Fin N, (z (ix2 p q') : EReal) = Z (ix2 P q')) :
    divf
        (exp (subf z (broadcastTo ⟨2, ![B, N]⟩ (shapeCast ⟨2, ![B, 1]⟩
          (maximumf (broadcast ⟨1, ![B]⟩ (FloatOps.ofBits (F := Ideal) .f32 0xFF800000#32))
            (multiReduction (F := Ideal) .maximumf [1] ⟨1, ![B]⟩ z 0xFF800000#32 hR hφ hmax)) hSC) hBC)))
        (broadcastTo ⟨2, ![B, N]⟩ (shapeCast ⟨2, ![B, 1]⟩
          (multiReduction (F := Ideal) .add [1] ⟨1, ![B]⟩
            (exp (subf z (broadcastTo ⟨2, ![B, N]⟩ (shapeCast ⟨2, ![B, 1]⟩
              (maximumf (broadcast ⟨1, ![B]⟩ (FloatOps.ofBits (F := Ideal) .f32 0xFF800000#32))
                (multiReduction (F := Ideal) .maximumf [1] ⟨1, ![B]⟩ z 0xFF800000#32 hR hφ hmax)) hSC) hBC)))
            0x00000000#32 hR hφ hadd) hSC) hBC)
        (ix2 p q)
      = Host.divf
        (Host.exp (subf Z (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))))
        (broadcastInDim ⟨2, ![M, N]⟩ ![0, 1] hb2 (broadcastInDim ⟨2, ![M, 1]⟩ ![0] hb1
          (Host.reduceAdd (F := Ideal)
            (Host.exp (subf Z (broadcastInDim ⟨2, ![M, N]⟩ ![0, 1] hb2 (broadcastInDim ⟨2, ![M, 1]⟩ ![0] hb1
              (maximumf (broadcastInDim ⟨1, ![M]⟩ ![] hb0 (constant (F := Ideal) ⟨0, ![]⟩ .f32 0xFF800000#32))
                (Host.reduce (FloatOps.maximumf (F := Ideal) (φ := .f32)) Z (constant (F := Ideal) ⟨0, ![]⟩ .f32 0xFF800000#32) hRT hu))))))
            (constant (F := Ideal) ⟨0, ![]⟩ .f32 0x00000000#32) hRT hu)))
        (ix2 P q) := by
  have hrow : (fun k : Fin N => z (ix2 p k)) = fun k : Fin N => Z (ix2 P k) := funext hz
  have hexp : ∀ j : Fin N,
      exp (subf z (broadcastTo ⟨2, ![B, N]⟩ (shapeCast ⟨2, ![B, 1]⟩
          (maximumf (broadcast ⟨1, ![B]⟩ (FloatOps.ofBits (F := Ideal) .f32 0xFF800000#32))
            (multiReduction (F := Ideal) .maximumf [1] ⟨1, ![B]⟩ z 0xFF800000#32 hR hφ hmax)) hSC) hBC)) (ix2 p j)
        = Host.exp (subf Z (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))) (ix2 P j) := by
    intro j
    rw [kernel_exp_apply, host_exp_apply, hrow, hz j]
  rw [kernel_quotient_apply, host_quotient_apply, hexp q]
  exact congrArg (Ideal.div _) (Finset.sum_congr rfl fun k _ => hexp k)

/-- The instance the lemma is meant for: a block of 1024 rows against a matrix of 1024 rows, 47 wide. -/
example (z Z : FVec Ideal ⟨2, ![1024, 47]⟩ .f32)
    (hR : (⟨2, ![1024, 47]⟩ : Shape).Reduces [1] (⟨1, ![1024]⟩ : Shape))
    (hSC : (⟨1, ![1024]⟩ : Shape).ShapeCasts ⟨2, ![1024, 1]⟩) (hBC : (⟨2, ![1024, 1]⟩ : Shape).Broadcasts ⟨2, ![1024, 47]⟩)
    (hRT : (⟨2, ![1024, 47]⟩ : Shape).ReducesTo [1] (⟨1, ![1024]⟩ : Shape)) (hu : 0 < (⟨0, ![]⟩ : Shape).numel)
    (hb0 : (⟨0, ![]⟩ : Shape).BroadcastsInDim ⟨1, ![1024]⟩ (![] : Fin 0 → Fin (⟨1, ![1024]⟩ : Shape).rank))
    (hb1 : (⟨1, ![1024]⟩ : Shape).BroadcastsInDim ⟨2, ![1024, 1]⟩ (![0] : Fin 1 → Fin (⟨2, ![1024, 1]⟩ : Shape).rank))
    (hb2 : (⟨2, ![1024, 1]⟩ : Shape).BroadcastsInDim ⟨2, ![1024, 47]⟩ (![0, 1] : Fin 2 → Fin (⟨2, ![1024, 47]⟩ : Shape).rank))
    (p P : Fin 1024) (q : Fin 47) (hz : ∀ q' : Fin 47, (z (ix2 p q') : EReal) = Z (ix2 P q')) :
    divf
        (exp (subf z (broadcastTo ⟨2, ![1024, 47]⟩ (shapeCast ⟨2, ![1024, 1]⟩
          (maximumf (broadcast ⟨1, ![1024]⟩ (Scalar.ofBits (F := Ideal) .f32 0xFF800000#32))
            (multiReduction (F := Ideal) .maximumf [1] ⟨1, ![1024]⟩ z 0xFF800000#32 hR (.inl rfl) rfl)) hSC) hBC)))
        (broadcastTo ⟨2, ![1024, 47]⟩ (shapeCast ⟨2, ![1024, 1]⟩
          (multiReduction (F := Ideal) .add [1] ⟨1, ![1024]⟩
            (exp (subf z (broadcastTo ⟨2, ![1024, 47]⟩ (shapeCast ⟨2, ![1024, 1]⟩
              (maximumf (broadcast ⟨1, ![1024]⟩ (Scalar.ofBits (F := Ideal) .f32 0xFF800000#32))
                (multiReduction (F := Ideal) .maximumf [1] ⟨1, ![1024]⟩ z 0xFF800000#32 hR (.inl rfl) rfl)) hSC) hBC)))
            0x00000000#32 hR (.inl rfl) rfl) hSC) hBC)
        (ix2 p q)
      = Host.divf
        (Host.exp (subf Z (broadcastInDim ⟨2, ![1024, 47]⟩ ![0, 1] hb2 (broadcastInDim ⟨2, ![1024, 1]⟩ ![0] hb1
          (maximumf (broadcastInDim ⟨1, ![1024]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))))
        (broadcastInDim ⟨2, ![1024, 47]⟩ ![0, 1] hb2 (broadcastInDim ⟨2, ![1024, 1]⟩ ![0] hb1
          (Host.reduceAdd (F := Ideal)
            (Host.exp (subf Z (broadcastInDim ⟨2, ![1024, 47]⟩ ![0, 1] hb2 (broadcastInDim ⟨2, ![1024, 1]⟩ ![0] hb1
              (maximumf (broadcastInDim ⟨1, ![1024]⟩ ![] hb0 (constant (F := Ideal) ⟨0, ![]⟩ .f32 0xFF800000#32))
                (Host.reduce (FloatOps.maximumf (F := Ideal) (φ := .f32)) Z (constant (F := Ideal) ⟨0, ![]⟩ .f32 0xFF800000#32) hRT hu))))))
            (constant (F := Ideal) ⟨0, ![]⟩ .f32 0x00000000#32) hRT hu)))
        (ix2 P q) :=
  softmax_row z Z hR (.inl rfl) rfl rfl hSC hBC hRT hu hb0 hb1 hb2 p P q hz

end Cert.Lib.RowSoftmax

end
-- ==== Proof.Layer2.lean ====
/-
  Region 2 (the last graph layer and the softmax) as one array.  The region's grid is one point working on all 1024
  rows: it reads the first 1024 rows of the second layer's output, the summed neighbour messages, the in-degree
  column, the two weight matrices and the bias, and writes the whole output.  Entry (p, q) of what it writes is
      exp (z_q − μ) / Σ_k exp (z_k − μ),  z = h·Wₛ + (s / max d 1)·Wₙ + b at row p,  μ = max (−∞) (max_k z_k),
  which is entry (p, q) of the reference's last layer followed by its softmax, read as a function of the same
  arrays.  The one block is the whole array.  Stated for any contents `V` of the TensorCore's buffers at the
  region's entry whose six input arrays are the reference's corresponding stages.
-/
import proofs.«181459_j11751030522721_1_alg».proof.Proof.Gen.KernelIdeal.Frame
import proofs.«181459_j11751030522721_1_alg».proof.Proof.Gen.ReferenceIdeal.Read
import proofs.«181459_j11751030522721_1_alg».proof.Proof.LibSagePre
import proofs.«181459_j11751030522721_1_alg».proof.Proof.LibRowSoftmax
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.ReferenceIdeal.Read

variable (A0 : (⟨Cert.ReferenceIdeal.S1000000x128, .f32⟩ : BufTy).Contents (Elt Ideal))
  (A1 A2 : (⟨Cert.ReferenceIdeal.S1024000, .i32⟩ : BufTy).Contents (Elt Ideal)) (A3 A4 : (⟨Cert.ReferenceIdeal.S102400, .i32⟩ : BufTy).Contents (Elt Ideal))
  (A5 A6 : (⟨Cert.ReferenceIdeal.S10240, .i32⟩ : BufTy).Contents (Elt Ideal))
  (A7 A8 : (⟨Cert.ReferenceIdeal.S128x256, .f32⟩ : BufTy).Contents (Elt Ideal)) (A9 : (⟨Cert.ReferenceIdeal.S256, .f32⟩ : BufTy).Contents (Elt Ideal))
  (A10 A11 : (⟨Cert.ReferenceIdeal.S256x256, .f32⟩ : BufTy).Contents (Elt Ideal)) (A12 : (⟨Cert.ReferenceIdeal.S256, .f32⟩ : BufTy).Contents (Elt Ideal))
  (A13 A14 : (⟨Cert.ReferenceIdeal.S256x47, .f32⟩ : BufTy).Contents (Elt Ideal)) (A15 : (⟨Cert.ReferenceIdeal.S47, .f32⟩ : BufTy).Contents (Elt Ideal))

/-- Entry `(p, q)` of the body's stored value is entry `(P, q)` of the reference's softmax of the last layer, when the loaded
    blocks hold row `P` of the reference's operands at their row `p` and the weights and the bias whole. -/
theorem pay_entry (v0 : Vec Ideal S1024x1 .f32) (v4 v8 : Vec Ideal S1024x256 .f32) (v11 v15 : Vec Ideal S256x47 .bf16)
    (v19 : Vec Ideal S47 .f32) (p : Fin 1024) (P : Fin 1024) (q : Fin 47)
    (h8 : ∀ k : Fin 256, (v8 (ix2 p k) : EReal) = val_main_v83 (F := Ideal) A0 A1 A2 A3 A4 A7 A8 A9 A10 A11 A12 (ix2 P k))
    (h4 : ∀ k : Fin 256, (v4 (ix2 p k) : EReal) = val_main_v73 (F := Ideal) A0 A1 A2 A3 A4 A5 A6 A7 A8 A9 A10 A11 A12 (ix2 P k))
    (h0 : (v0 (ix2 p (0 : Fin 1)) : EReal) = val_main_v77 (F := Ideal) A6 (ix1 P))
    (h11 : ∀ (k : Fin 256) (j : Fin 47), (v11 (ix2 k j) : EReal) = A13 (ix2 k j))
    (h15 : ∀ (k : Fin 256) (j : Fin 47), (v15 (ix2 k j) : EReal) = A14 (ix2 k j))
    (h19 : ∀ j : Fin 47, (v19 (ix1 j) : EReal) = A15 (ix1 j)) :
    k2_pay1 (F := Ideal) v0 v4 v8 v11 v15 v19 (ix2 p q) = val_main_v100 (F := Ideal) A0 A1 A2 A3 A4 A5 A6 A7 A8 A9 A10 A11 A12 A13 A14 A15 (ix2 P q) := by
  unfold k2_pay1
  unfold val_main_v100 val_main_v99 val_main_v98 val_main_v97 val_main_v96 val_main_v95 val_main_v94 val_main_v93 val_main_v92
    val_main_v91 val_main_v90 val_main_cst_18 val_main_cst_19 val_main_cst_20
  refine Cert.Lib.RowSoftmax.softmax_row (M := 1024) (B := 1024) (N := 47) _ (val_main_v89 (F := Ideal) A0 A1 A2 A3 A4 A5 A6 A7 A8 A9 A10 A11 A12 A13 A14 A15)
    _ (.inl rfl) rfl rfl _ _ _ _ _ _ _ p P q (fun j => ?_)
  unfold val_main_v89 val_main_v88 val_main_v87 val_main_v86 val_main_v85 val_main_v84 val_main_v82 val_main_v81 val_main_v80
    val_main_v79 val_main_v78 val_main_cst_17
  exact Cert.Lib.SagePre.pre_row (M := 1024) (B := 1024) (K := 256) (N := 47) 0x3F800000#32 none none v0 v4 v8 v11 v15 v19
    (val_main_v77 (F := Ideal) A6) (val_main_v73 (F := Ideal) A0 A1 A2 A3 A4 A5 A6 A7 A8 A9 A10 A11 A12) (val_main_v83 (F := Ideal) A0 A1 A2 A3 A4 A7 A8 A9 A10 A11 A12) A13 A14 A15
    _ _ _ _ _ _ _ _ _ _ _ _ p P j h8 h4 h0 (fun k => h11 k j) (fun k => h15 k j) (h19 j)

theorem hz2 : (![0, 0] : Fin 2 → Nat) = fun _ => 0 := funext fun a => by fin_cases a <;> rfl
theorem hz1 : (![0] : Fin 1 → Nat) = fun _ => 0 := funext fun a => by fin_cases a <;> rfl

/-- The block index of every window at every grid point: with one point every window's block is the
    whole array (the point's number, 0, is written `t.val` to keep the arithmetic of a row-blocked window). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b)) (c : Dev nD)

/-- Row `p` of the feature block at the one point `t = 0` is row `1024·t + p = p` of the second layer's output. -/
theorem blk_hs (t : Fin cfg2.N) (p : Fin 1024) (k : Fin 256) (P : Fin 1024) (hP : P.val = t.val * 1024 + p.val) :
    (iblk2 V c 0 t : Vec Ideal S1024x256 .f32) (ix2 p k) = (V c main_v52 : S1024x256.Idx → EReal) (ix2 P k) := by
  obtain ⟨e0, e1, -⟩ := idx_facts t
  unfold iblk2
  rw [View.read_apply]
  show V c main_v52 _ = V c main_v52 _
  congr 1
  funext a
  apply Fin.ext
  match a with
  | ⟨0, _⟩ => show win2_0.index t (0 : Fin 2) * 1024 + 1 * p.val = P.val; rw [e0, hP]; omega
  | ⟨1, _⟩ => show win2_0.index t (1 : Fin 2) * 256 + 1 * k.val = k.val; rw [e1]; omega

/-- The same for the block of summed messages. -/
theorem blk_msg (t : Fin cfg2.N) (p : Fin 1024) (k : Fin 256) (P : Fin 1024) (hP : P.val = t.val * 1024 + p.val) :
    (iblk2 V c 1 t : Vec Ideal S1024x256 .f32) (ix2 p k) = (V c main_v47 : S1024x256.Idx → EReal) (ix2 P k) := by
  obtain ⟨-, -, e0, e1, -⟩ := idx_facts t
  unfold iblk2
  rw [View.read_apply]
  show V c main_v47 _ = V c main_v47 _
  congr 1
  funext a
  apply Fin.ext
  match a with
  | ⟨0, _⟩ => show win2_1.index t (0 : Fin 2) * 1024 + 1 * p.val = P.val; rw [e0, hP]; omega
  | ⟨1, _⟩ => show win2_1.index t (1 : Fin 2) * 256 + 1 * k.val = k.val; rw [e1]; omega

/-- The same for the degree column. -/
theorem blk_deg (t : Fin cfg2.N) (p : Fin 1024) (P : Fin 1024) (hP : P.val = t.val * 1024 + p.val) :
    (iblk2 V c 2 t : Vec Ideal S1024x1 .f32) (ix2 p (0 : Fin 1)) = (V c main_v55 : S1024x1.Idx → EReal) (ix2 P (0 : Fin 1)) := by
  obtain ⟨-, -, -, -, e0, e1, -⟩ := idx_facts t
  unfold iblk2
  rw [View.read_apply]
  show V c main_v55 _ = V c main_v55 _
  congr 1
  funext a
  apply Fin.ext
  match a with
  | ⟨0, _⟩ => show win2_2.index t (0 : Fin 2) * 1024 + 1 * p.val = P.val; rw [e0, hP]; omega
  | ⟨1, _⟩ => show win2_2.index t (1 : Fin 2) * 1 + 1 * 0 = 0; rw [e1]

/-- The self weights are staged whole at every point. -/
theorem blk_ws (t : Fin cfg2.N) (k : Fin 256) (j : Fin 47) :
    (iblk2 V c 3 t : Vec Ideal S256x47 .bf16) (ix2 k j) = (V c main_v53 : S256x47.Idx → EReal) (ix2 k j) := by
  obtain ⟨-, -, -, -, -, -, e0, e1, -⟩ := idx_facts t
  unfold iblk2
  rw [View.read_apply]
  show V c main_v53 _ = V c main_v53 _
  congr 1
  funext a
  apply Fin.ext
  match a with
  | ⟨0, _⟩ => show win2_3.index t (0 : Fin 2) * 256 + 1 * k.val = k.val; rw [e0]; omega
  | ⟨1, _⟩ => show win2_3.index t (1 : Fin 2) * 47 + 1 * j.val = j.val; rw [e1]; omega

/-- So are the neighbour weights. -/
theorem blk_wn (t : Fin cfg2.N) (k : Fin 256) (j : Fin 47) :
    (iblk2 V c 4 t : Vec Ideal S256x47 .bf16) (ix2 k j) = (V c main_v54 : S256x47.Idx → EReal) (ix2 k j) := by
  obtain ⟨-, -, -, -, -, -, -, -, e0, e1, -⟩ := idx_facts t
  unfold iblk2
  rw [View.read_apply]
  show V c main_v54 _ = V c main_v54 _
  congr 1
  funext a
  apply Fin.ext
  match a with
  | ⟨0, _⟩ => show win2_4.index t (0 : Fin 2) * 256 + 1 * k.val = k.val; rw [e0]; omega
  | ⟨1, _⟩ => show win2_4.index t (1 : Fin 2) * 47 + 1 * j.val = j.val; rw [e1]; omega

/-- And the bias. -/
theorem blk_b (t : Fin cfg2.N) (j : Fin 47) :
    (iblk2 V c 5 t : Vec Ideal S47 .f32) (ix1 j) = (V c main_arg15 : S47.Idx → EReal) (ix1 j) := by
  obtain ⟨-, -, -, -, -, -, -, -, -, -, e0, -⟩ := idx_facts t
  unfold iblk2
  rw [View.read_apply]
  show V c main_arg15 _ = V c main_arg15 _
  congr 1
  funext a
  apply Fin.ext
  match a with
  | ⟨0, _⟩ => show win2_5.index t (0 : Fin 1) * 47 + 1 * j.val = j.val; rw [e0]; omega

variable (hhs : (V c main_v52 : S1024x256.Idx → EReal) = val_main_v83 (F := Ideal) A0 A1 A2 A3 A4 A7 A8 A9 A10 A11 A12)
  (hmsg : (V c main_v47 : S1024x256.Idx → EReal) = val_main_v73 (F := Ideal) A0 A1 A2 A3 A4 A5 A6 A7 A8 A9 A10 A11 A12)
  (hdeg : ∀ P : Fin 1024, (V c main_v55 : S1024x1.Idx → EReal) (ix2 P (0 : Fin 1)) = val_main_v77 (F := Ideal) A6 (ix1 P))
  (hws : ∀ i, (V c main_v53 : S256x47.Idx → EReal) i = A13 i) (hwn : ∀ i, (V c main_v54 : S256x47.Idx → EReal) i = A14 i)
  (hb : (V c main_arg15 : S47.Idx → EReal) = A15)

include hhs hmsg hdeg hws hwn hb in
/-- What point `t` writes back is block `t` of the reference's softmax of the last layer. -/
theorem flushed_eq (t : Fin cfg2.N) :
    (dat2 V c).flushed 6 t = ((cfg2.win 6).blk t).view.read (Elt Ideal) (val_main_v100 (F := Ideal) A0 A1 A2 A3 A4 A5 A6 A7 A8 A9 A10 A11 A12 A13 A14 A15) := by
  have ht : t.val < 1 := lt_of_lt_of_eq t.isLt (show cfg2.N = 1 from N_2)
  obtain ⟨-, -, -, -, -, -, -, -, -, -, -, e0, e1⟩ := idx_facts t
  show (cfg2.win 6).cut (grid2.coords t) ((dat2 V c).after 6 t) = _
  rw [after2_6]
  unfold out2_6
  rw [View.canon_unit_zero hz2]
  simp only [View.ld_unit_zero (S := S1024x1) hz2, View.ld_unit_zero (S := S1024x256) hz2,
    View.ld_unit_zero (S := S256x47) hz2, View.ld_unit_zero (S := S47) hz1]
  funext j
  obtain ⟨p, q, rfl⟩ : ∃ (p : Fin 1024) (q : Fin 47), j = ix2 p q := ⟨j 0, j 1, eq_ix2 j⟩
  have hPlt : t.val * 1024 + p.val < 1024 := by have := p.isLt; omega
  have hemb : ((cfg2.win 6).blk t).view.emb (ix2 p q) = (ix2 (⟨t.val * 1024 + p.val, hPlt⟩ : Fin 1024) q : S1024x47.Idx) := by
    funext a
    apply Fin.ext
    match a with
    | ⟨0, _⟩ => show win2_6.index t (0 : Fin 2) * 1024 + 1 * p.val = t.val * 1024 + p.val; rw [e0]; omega
    | ⟨1, _⟩ => show win2_6.index t (1 : Fin 2) * 47 + 1 * q.val = q.val; rw [e1]; omega
  show k2_pay1 (F := Ideal) (iblk2 V c 2 t) (iblk2 V c 1 t) (iblk2 V c 0 t) (iblk2 V c 3 t) (iblk2 V c 4 t) (iblk2 V c 5 t) (ix2 p q)
    = val_main_v100 (F := Ideal) A0 A1 A2 A3 A4 A5 A6 A7 A8 A9 A10 A11 A12 A13 A14 A15 (((cfg2.win 6).blk t).view.emb (ix2 p q))
  rw [hemb]
  exact pay_entry A0 A1 A2 A3 A4 A5 A6 A7 A8 A9 A10 A11 A12 A13 A14 A15 (iblk2 V c 2 t) (iblk2 V c 1 t) (iblk2 V c 0 t) (iblk2 V c 3 t) (iblk2 V c 4 t) (iblk2 V c 5 t)
    p ⟨t.val * 1024 + p.val, hPlt⟩ q
    (fun k => (blk_hs V c t p k _ rfl).trans (congrFun hhs _))
    (fun k => (blk_msg V c t p k _ rfl).trans (congrFun hmsg _))
    ((blk_deg V c t p _ rfl).trans (hdeg _))
    (fun k j => (blk_ws V c t k j).trans (hws _))
    (fun k j => (blk_wn V c t k j).trans (hwn _))
    (fun j => (blk_b V c t j).trans (congrFun hb _))

/-- An index of the output array is in point `t`'s block iff each coordinate is in the block's range on its axis. -/
theorem mem_blk (t : Fin cfg2.N) (i : S1024x47.Idx) :
    i ∈ ((cfg2.win 6).blk t).view.set ↔ ∀ a : Fin 2, win2_6.index t a * S1024x47.size a ≤ (i a).val ∧ (i a).val < win2_6.index t a * S1024x47.size a + S1024x47.size a := by
  show i ∈ ((View.whole main_v56).slice (win2_6.rect t)).set ↔ _
  rw [View.set_slice_whole, Rect.mem_set_unit]
  exact Iff.rfl

/-- Every row of the output array is in the one point's block. -/
theorem cover (i : S1024x47.Idx) : ∃ t : Fin cfg2.N, (cfg2.win 6).flush t = true ∧ i ∈ ((cfg2.win 6).blk t).view.set := by
  have hi0 : (i 0).val < 1024 := (i 0).isLt
  have hi1 : (i 1).val < 47 := (i 1).isLt
  have hlt : (i 0).val / 1024 < cfg2.N := by rw [show cfg2.N = 1 from N_2]; omega
  obtain ⟨-, -, -, -, -, -, -, -, -, -, -, e0, e1⟩ := idx_facts ⟨(i 0).val / 1024, hlt⟩
  refine ⟨⟨(i 0).val / 1024, hlt⟩, flush2_6 _, ?_⟩
  rw [mem_blk]
  intro a
  match a with
  | ⟨0, _⟩ =>
    show win2_6.index ⟨(i 0).val / 1024, hlt⟩ (0 : Fin 2) * 1024 ≤ (i 0).val ∧ (i 0).val < win2_6.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win2_6.index ⟨(i 0).val / 1024, hlt⟩ (1 : Fin 2) * 256 ≤ (i 1).val ∧ (i 1).val < win2_6.index ⟨(i 0).val / 1024, hlt⟩ (1 : Fin 2) * 47 + 47
    rw [e1]
    omega

include hhs hmsg hdeg hws hwn hb in
/-- The region's output array after its last point is the reference's softmax of the last layer. -/
theorem arr : (dat2 V c).arrAt 6 cfg2.N = val_main_v100 (F := Ideal) A0 A1 A2 A3 A4 A5 A6 A7 A8 A9 A10 A11 A12 A13 A14 A15 :=
  (dat2 V c).arrAt_eq_of_cover 6 (val_main_v100 (F := Ideal) A0 A1 A2 A3 A4 A5 A6 A7 A8 A9 A10 A11 A12 A13 A14 A15)
    (fun t _ => flushed_eq A0 A1 A2 A3 A4 A5 A6 A7 A8 A9 A10 A11 A12 A13 A14 A15 V c hhs hmsg hdeg hws hwn hb t) (cover)

end Cert.KernelIdeal.Layer2

end
-- ==== Proof.Layers.lean ====
/-
  The three graph layers chained.  The kernel's program runs a stretch of host operations (index normalisation,
  gather, two scatter-adds, a slice, the weights' change of format), then a region, three times over.  The buffer
  contents at the six boundaries are a fold from the launch memory; here each region's output array, read at the
  boundary after it, is the reference's corresponding stage as a function of the launch arguments:
  the first layer after region 0, the second after region 1, the softmax of the third after region 2.  Each step
  takes the region's input arrays from the host stretch before it (which applies the reference's own operations to
  the previous layer's output and to arguments nothing has written) and the region's value from its row blocks.
-/
import proofs.«181459_j11751030522721_1_alg».proof.Proof.KernelRun
import proofs.«181459_j11751030522721_1_alg».proof.Proof.HostStretches
import proofs.«181459_j11751030522721_1_alg».proof.Proof.Layer0
import proofs.«181459_j11751030522721_1_alg».proof.Proof.Layer1
import proofs.«181459_j11751030522721_1_alg».proof.Proof.Layer2

noncomputable section

open Idealize.ShloMosaic Idealize.ShloMosaic.TcCoe Idealize.SL.Sem

namespace Cert.KernelIdeal.Hand

open Cert.KernelIdeal Cert.KernelIdeal.Gen Cert.ReferenceIdeal.Read

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- After region 0 its output array holds the reference's first layer. -/
theorem layer0 : Gen.W2 m ρ c (Proc.devRef .tc main_v18) = val_main_v31 (F := Ideal) (arg m c main_arg0) (arg m c main_arg1) (arg m c main_arg2) (arg m c main_arg7) (arg m c main_arg8) (arg m c main_arg9) :=
  (Gen.W2_arr m ρ c 6).trans
    (Cert.KernelIdeal.Layer0.arr _ _ _ _ _ _ (Gen.V1 m ρ) c (E0_hs m ρ c) (E0_msg m ρ c) (E0_deg m ρ c) (E0_ws m ρ c)
      (E0_wn m ρ c) (E0_b m ρ c))

/-- After region 1 its output array holds the reference's second layer. -/
theorem layer1 : Gen.W4 m ρ c (Proc.devRef .tc main_v37) = val_main_v63 (F := Ideal) (arg m c main_arg0) (arg m c main_arg1) (arg m c main_arg2) (arg m c main_arg3) (arg m c main_arg4) (arg m c main_arg7) (arg m c main_arg8) (arg m c main_arg9) (arg m c main_arg10) (arg m c main_arg11) (arg m c main_arg12) :=
  (Gen.W4_arr m ρ c 6).trans
    (Cert.KernelIdeal.Layer1.arr _ _ _ _ _ _ _ _ _ _ _ (Gen.V3 m ρ) c (E1_hs m ρ c (layer0 m ρ c)) (E1_msg m ρ c (layer0 m ρ c))
      (E1_deg m ρ c) (E1_ws m ρ c) (E1_wn m ρ c) (E1_b m ρ c))

/-- After region 2 the result array holds the reference's result. -/
theorem layer2 : Gen.W6 m ρ c (Proc.devRef .tc main_v56) = val_main_v100 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) :=
  (Gen.W6_arr m ρ c 6).trans
    (Cert.KernelIdeal.Layer2.arr _ _ _ _ _ _ _ _ _ _ _ _ _ _ _ _ (Gen.V5 m ρ) c (E2_hs m ρ c (layer1 m ρ c)) (E2_msg m ρ c (layer1 m ρ c))
      (E2_deg m ρ c) (E2_ws m ρ c) (E2_wn m ρ c) (E2_b m ρ c))

/-- The kernel's run: it terminates without a fault, the result array at the reference's result as a function of the
    launch arguments, the arguments unchanged. -/
theorem run_value : θ_run defs (onTc (τ := τ) (main (F := Ideal))) ⟨m, fun _ => 0, ρ⟩ (fun r => ∀ c : Dev nD,
      r.2.mem ((c.tc : Thread nD τ).loc main_v56) = val_main_v100 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (layer2 m ρ c), (h c).2⟩) (run_result m ρ)

end Cert.KernelIdeal.Hand

end
-- ==== Proof.lean ====
/-
  A three-layer mean-aggregating graph network on sampled blocks: each layer gathers the source rows of the previous
  layer's output, adds them into their destination rows, divides by max(in-degree, 1), and computes
      x·Wₛ + (s / max d 1)·Wₙ + b
  followed by  relu and a row-wise L2 normalisation  r / (‖r‖₂ + ε)  (layers one and two)  or a row softmax (layer three).
  The kernel keeps gather and scatter-add on the host, exactly the reference's operations, and computes the dense
  part of every layer in a region tiled over blocks of rows, with the operands of the two matrix products passed
  through a narrower float format; the reference computes everything on whole arrays.  On the extended reals a change
  of float format is the identity, a matrix product of a block of rows is the rows of the whole product, and the
  row reductions are the same sums and maxima; so, layer by layer, each region's output array is the reference's
  stage as a function of the launch arguments (Proof/Layers.lean, over Proof/Layer0.lean … Layer2.lean for the row
  blocks and Proof/HostStretches.lean for the host operations between the regions), and the two results are one
  function of arguments that agree.  No law used needs a finite operand, so the precondition is never opened.
  The kernel's run is the generated regions' run with its result named (Proof/KernelRun.lean); the reference's run and
  its stages are the generated read-back modules.  The idealization rewrote no operation: `preserves` is `True`.
-/
import proofs.«181459_j11751030522721_1_alg».proof.Defs
import proofs.«181459_j11751030522721_1_alg».proof.Proof.Gen.Kernel
import proofs.«181459_j11751030522721_1_alg».proof.Proof.Gen.Kernel.Skeleton
import proofs.«181459_j11751030522721_1_alg».proof.Proof.Gen.Kernel.Launch
import proofs.«181459_j11751030522721_1_alg».proof.Proof.Gen.Kernel.Points
import proofs.«181459_j11751030522721_1_alg».proof.Proof.Gen.Kernel.Frame
import proofs.«181459_j11751030522721_1_alg».proof.Proof.Gen.KernelIdeal
import proofs.«181459_j11751030522721_1_alg».proof.Proof.Gen.KernelIdeal.Skeleton
import proofs.«181459_j11751030522721_1_alg».proof.Proof.Gen.KernelIdeal.Launch
import proofs.«181459_j11751030522721_1_alg».proof.Proof.Gen.KernelIdeal.Points
import proofs.«181459_j11751030522721_1_alg».proof.Proof.Gen.KernelIdeal.Frame
import proofs.«181459_j11751030522721_1_alg».proof.Proof.Gen.ReferenceIdeal
import proofs.«181459_j11751030522721_1_alg».proof.Proof.Gen.Pre_finite_inputs
import proofs.«181459_j11751030522721_1_alg».proof.Proof.Gen.ReferenceIdeal.Run
import proofs.«181459_j11751030522721_1_alg».proof.Proof.Gen.ReferenceIdeal.Read
import proofs.«181459_j11751030522721_1_alg».proof.Proof.Layers
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's last stage of the kernel's launch arguments: the
    kernel's by the three layers, the reference's by its own run, its arguments rewritten by the agreement. -/
theorem algebraic : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.Hand.run_value m ρ, ?_⟩
  refine (θ_run Cert.ReferenceIdeal.defs _ _).mono (fun r h c => ⟨?_, (h c).2⟩) (Cert.ReferenceIdeal.Value.run (F := Ideal) m' ρ')
  obtain ⟨e0, e1, e2, e3, e4, e5, e6, e7, e8, e9, e10, e11, e12, e13, e14, e15⟩ := hagree c
  rw [(h c).1, Cert.ReferenceIdeal.Read.val_main_v100_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
